-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256 .f32) (main_arg7 : FVec F S256x64 .f32) (main_arg8 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S600000 32) (main_arg2 : IVec S600000 32) (main_arg3 : FVec F S128x256 .f32) (main_arg4 : FVec F S256 .f32) (main_arg5 : FVec F S256x256 .f32) (main_arg6 : FVec F S256 .f32) (main_arg7 : FVec F S256x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x128 : Shape := ⟨2, ![50000, 128]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S600000x256 : Shape := ⟨2, ![600000, 256]⟩
abbrev S1x64 : Shape := ⟨2, ![1, 64]⟩
abbrev S50000x64 : Shape := ⟨2, ![50000, 64]⟩
abbrev S2000x64 : Shape := ⟨2, ![2000, 64]⟩
abbrev S2000 : Shape := ⟨1, ![2000]⟩

abbrev nBuf : Space → Nat
  | .hbm => 67
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S1x256, .f32⟩
  | .hbm, ⟨36, _⟩ => ⟨S50000x256, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x256, .f32⟩
  | .hbm, ⟨46, _⟩ => ⟨S_, .f32⟩
  | .hbm, ⟨47, _⟩ => ⟨S50000x256, .f32⟩
  | .hbm, ⟨48, _⟩ => ⟨S600000x1, .i32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x256, .f32⟩
  | .hbm, ⟨61, _⟩ => ⟨S_, .f32⟩
  | .hbm, ⟨62, _⟩ => ⟨S50000x256, .f32⟩
  | .hbm, ⟨63, _⟩ => ⟨S600000x1, .i32⟩
  | .hbm, ⟨64, _⟩ => ⟨S50000x256, .f32⟩
  | .hbm, ⟨65, _⟩ => ⟨S1x64, .f32⟩
  | .hbm, ⟨66, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x1, .f32⟩
  | .local _ .vmem, ⟨15, _⟩ => ⟨S2000x1, .f32⟩
  | .local _ .vmem, ⟨16, _⟩ => ⟨S256x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x1, .f32⟩
  | .local _ .vmem, ⟨25, _⟩ => ⟨S2000x1, .f32⟩
  | .local _ .vmem, ⟨26, _⟩ => ⟨S256x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .f32 = 32 ∨ (Rect.block (s := S256x64) S256x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S50000x256 : Shape := ⟨2, ![50000, 256]⟩
abbrev S1x256 : Shape := ⟨2, ![1, 256]⟩
abbrev S600000x256 : Shape := ⟨2, ![600000, 256]⟩
abbrev S50000x64 : Shape := ⟨2, ![50000, 64]⟩
abbrev S1x64 : Shape := ⟨2, ![1, 64]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x256, .f32⟩
  | .hbm, ⟨54, _⟩ => ⟨S_, .f32⟩
  | .hbm, ⟨55, _⟩ => ⟨S50000x256, .f32⟩
  | .hbm, ⟨56, _⟩ => ⟨S600000x1, .i32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x256, .f32⟩
  | .hbm, ⟨77, _⟩ => ⟨S_, .f32⟩
  | .hbm, ⟨78, _⟩ => ⟨S50000x256, .f32⟩
  | .hbm, ⟨79, _⟩ => ⟨S600000x1, .i32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S50000x64, .f32⟩
  | .hbm, ⟨88, _⟩ => ⟨S_, .f32⟩
  | .hbm, ⟨89, _⟩ => ⟨S50000, .f32⟩
  | .hbm, ⟨90, _⟩ => ⟨S_, .f32⟩
  | .hbm, ⟨91, _⟩ => ⟨S50000, .f32⟩
  | .hbm, ⟨92, _⟩ => ⟨S50000, .f32⟩
  | .hbm, ⟨93, _⟩ => ⟨S50000x1, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S50000, .f32⟩
  | .hbm, ⟨99, _⟩ => ⟨S50000x1, .f32⟩
  | .hbm, ⟨100, _⟩ => ⟨S50000x1, .f32⟩
  | .hbm, ⟨101, _⟩ => ⟨S50000x64, .f32⟩
  | .hbm, ⟨102, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_cst : Ref sig .tc := ⟨.hbm, 42, rfl⟩
abbrev main_call0_v0 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_cst : Ref sig .tc := ⟨.hbm, 65, rfl⟩
abbrev main_call1_v0 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call2_cst : Ref sig .tc := ⟨.hbm, 88, rfl⟩
abbrev main_call2_v0 : Ref sig .tc := ⟨.hbm, 89, rfl⟩
abbrev main_call2_cst_0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_cst_1 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_v62 : Ref sig .tc := ⟨.hbm, 102, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/-
  The kernel program's run with its result named.

  @main is three stretches of host operations and three regions. The buffer contents at the six boundaries form a fold from
  the launch memory (`W1 … W6` of the generated frame): a stretch applies its operations, a region replaces each of its
  arrays by what its write-backs leave. Every weakly fair execution terminates in a state whose unscoped buffers hold the
  last boundary's contents; read at the result buffer that is the statement below, and at the argument buffers the frame.
-/
import proofs.«123428_j68805376082494_1_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's contents
    and the argument arrays as launched. -/
theorem run_result : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.SageRun

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibLogSoftmax.lean ====
/-
  The logarithm of the softmax along the rows of a matrix, in the two spellings a tiled kernel and an untiled host program
  give it, both read entry by entry over the extended reals.

  For a row `y` the value at entry `q` is  (y q − mx) − log ∑ⱼ exp (y j − mx),  with `mx` the row's maximum folded from
  minus infinity (`logSoftmaxRow`). A kernel forms it on an [A, B] tile by a maximum and a sum along axis 1 (each result
  recast as an [A, 1] column and repeated along the rows); a host program by a `reduce` with a maximum body from minus
  infinity — compared once more with a minus-infinity array, which changes nothing —, a sum from zero, and
  `broadcast_in_dim`s of the column. At (p, q) both are `logSoftmaxRow` of row `p`
  (`logSoftmaxBlock_apply`, `hostLogSoftmax_apply`); nothing is assumed finite.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«123428_j68805376082494_1_alg».proof.Proof.LibColumnLayout
import proofs.«123428_j68805376082494_1_alg».proof.Proof.LibBroadcastInDim

open scoped BigOperators

noncomputable section

namespace Cert.LogSoftmax

open Idealize.ShloMosaic Idealize.ShloMosaic.ValueIdx

/-! ## The row function -/

/-- Minus infinity as the 32-bit pattern both programs start their row maxima from. -/
abbrev negInf : EReal := Ideal.ofBits .f32 0xFF800000#32

/-- The maximum of a row, folded from minus infinity. -/
def rowMax {M : ℕ} (y : Fin M → EReal) : EReal := (Finset.univ : Finset (Fin M)).fold max negInf y

/-- The logarithm of the softmax of a row `y`, at entry `q`. -/
def logSoftmaxRow {M : ℕ} (y : Fin M → EReal) (q : Fin M) : EReal :=
  (y q - rowMax y) - Ideal.log (∑ j : Fin M, Ideal.exp (y j - rowMax y))

/-- Minus infinity is neutral for the maximum. -/
theorem max_negInf (x : EReal) : max negInf x = x := by
  show max (Ideal.ofBits .f32 0xFF800000#32) x = x
  simp [Ideal.ofBits, Ideal.ieee]

/-! ## A kernel's tile -/

/-- The reduced index `p` with column `k` put back is (p, k). -/
theorem lift_row {A B : ℕ} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) := by
  funext c; apply Fin.ext
  fin_cases c <;> rfl

/-- A tile's maximum along each row, at row `p`: the row's maximum folded from minus infinity. -/
theorem rowMaxBlock_apply {A B : ℕ} (y : FVec Ideal ⟨2, ![A, B]⟩ .f32) (h : (⟨2, ![A, B]⟩ : Shape).Reduces [1] (⟨1, ![A]⟩ : Shape))
    (hφ : FKind.Formats .f32) (hacc : (0xFF800000#32 : BitVec FTy.f32.bits) = FKind.maximumf.neutral .f32 hφ) (p : Fin A) :
    multiReduction .maximumf [1] ⟨1, ![A]⟩ y 0xFF800000#32 h hφ hacc (ix1 p) = rowMax fun c => y (ix2 p c) := by
  rw [Ideal.multiReduction_maximumf_single y _ h hφ hacc (ix1 p)]
  have hf : (y ∘ h.lift (ix1 p)) = fun c : Fin B => y (ix2 p c) := funext fun k => congrArg y (lift_row h p k)
  exact congrArg (fun f => Finset.fold max (Ideal.ofBits .f32 0xFF800000#32) f (Finset.univ : Finset (Fin B))) hf

/-- A tile's sum along each row, at row `p`. -/
theorem rowSumBlock_apply {A B : ℕ} (y : FVec Ideal ⟨2, ![A, B]⟩ .f32) (h : (⟨2, ![A, B]⟩ : Shape).Reduces [1] (⟨1, ![A]⟩ : Shape))
    (hφ : FKind.Formats .f32) (hacc : (0x00000000#32 : BitVec FTy.f32.bits) = FKind.add.neutral .f32 hφ) (p : Fin A) :
    multiReduction .add [1] ⟨1, ![A]⟩ y 0x00000000#32 h hφ hacc (ix1 p) = ∑ c : Fin B, y (ix2 p c) := by
  rw [Ideal.multiReduction_add_single y _ h hφ hacc (ix1 p)]
  exact Finset.sum_congr rfl fun k _ => congrArg y (lift_row h p k)

/-- The last layer's arithmetic on a tile `y` of pre-activations, at (p, q): the log-softmax of row `p`. -/
theorem logSoftmaxBlock_apply {A B : ℕ} (y : FVec Ideal ⟨2, ![A, B]⟩ .f32) (h : (⟨2, ![A, B]⟩ : Shape).Reduces [1] (⟨1, ![A]⟩ : Shape))
    (hφ : FKind.Formats .f32) (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, B]⟩) (p : Fin A) (q : Fin B) :
    (subf (subf y (broadcastTo ⟨2, ![A, B]⟩ (shapeCast ⟨2, ![A, 1]⟩ (multiReduction .maximumf [1] ⟨1, ![A]⟩ y 0xFF800000#32 h hφ hmax) hc) hb))
      (broadcastTo ⟨2, ![A, B]⟩ (log (shapeCast ⟨2, ![A, 1]⟩ (multiReduction .add [1] ⟨1, ![A]⟩
        (exp (subf y (broadcastTo ⟨2, ![A, B]⟩ (shapeCast ⟨2, ![A, 1]⟩ (multiReduction .maximumf [1] ⟨1, ![A]⟩ y 0xFF800000#32 h hφ hmax) hc) hb)))
        0x00000000#32 h hφ hadd) hc)) hb) : FVec Ideal ⟨2, ![A, B]⟩ .f32) (ix2 p q)
      = logSoftmaxRow (fun c => y (ix2 p c)) q := by
  have hz : ∀ c : Fin B, (subf y (broadcastTo ⟨2, ![A, B]⟩ (shapeCast ⟨2, ![A, 1]⟩ (multiReduction .maximumf [1] ⟨1, ![A]⟩ y 0xFF800000#32 h hφ hmax) hc) hb)
      : FVec Ideal ⟨2, ![A, B]⟩ .f32) (ix2 p c) = y (ix2 p c) - rowMax fun c => y (ix2 p c) := fun c => by
    show y (ix2 p c) - broadcastTo ⟨2, ![A, B]⟩ (shapeCast ⟨2, ![A, 1]⟩ (multiReduction .maximumf [1] ⟨1, ![A]⟩ y 0xFF800000#32 h hφ hmax) hc) hb (ix2 p c) = _
    rw [Cert.ColumnLayout.broadcastTo_a1_ab_apply, Cert.ColumnLayout.shapeCast_a_a1_apply, rowMaxBlock_apply]
  show (subf y _ : FVec Ideal ⟨2, ![A, B]⟩ .f32) (ix2 p q) - broadcastTo ⟨2, ![A, B]⟩ (log (shapeCast ⟨2, ![A, 1]⟩ _ hc)) hb (ix2 p q) = _
  rw [hz q, Cert.ColumnLayout.broadcastTo_a1_ab_apply]
  show _ - Ideal.log (shapeCast ⟨2, ![A, 1]⟩ _ hc (ix2 p (0 : Fin 1))) = _
  rw [Cert.ColumnLayout.shapeCast_a_a1_apply, rowSumBlock_apply]
  unfold logSoftmaxRow
  refine congrArg (fun s => (y (ix2 p q) - rowMax fun c => y (ix2 p c)) - Ideal.log s) (Finset.sum_congr rfl fun c _ => ?_)
  show Ideal.exp ((subf y _ : FVec Ideal ⟨2, ![A, B]⟩ .f32) (ix2 p c)) = _
  rw [hz c]

/-! ## A host program's array -/

/-- The reduced index `p` with column `k` put back is (p, k). -/
theorem lift_row' {A B : ℕ} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) := by
  funext c; apply Fin.ext
  fin_cases c <;> rfl

/-- The host's maximum along each row from minus infinity, at row `p`. -/
theorem hostRowMax_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (p : Fin A) :
    Host.reduce FloatOps.maximumf y (constant (⟨0, ![]⟩ : Shape) .f32 0xFF800000#32) h' hu (ix1 p) = rowMax fun c => y (ix2 p c) := by
  have h : (⟨2, ![A, B]⟩ : Shape).Reduces [1] (⟨1, ![A]⟩ : Shape) := ⟨h'.1, Nat.one_pos, h'.2⟩
  rw [Host.reduce_eq_fold_single FloatOps.maximumf y _ h' h hu]
  have hf : (y ∘ h.lift (ix1 p)) = fun c : Fin B => y (ix2 p c) := funext fun k => congrArg y (lift_row' h p k)
  exact congrArg (fun f => Finset.fold max (Ideal.ofBits .f32 0xFF800000#32) f (Finset.univ : Finset (Fin B))) hf

/-- The host's sum along each row from zero, at row `p`. -/
theorem hostRowSum_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (p : Fin A) :
    Host.reduceAdd y (constant (⟨0, ![]⟩ : Shape) .f32 0x00000000#32) h' hu (ix1 p) = ∑ c : Fin B, y (ix2 p c) := by
  have h : (⟨2, ![A, B]⟩ : Shape).Reduces [1] (⟨1, ![A]⟩ : Shape) := ⟨h'.1, Nat.one_pos, h'.2⟩
  show Ideal.hostReduceAdd h' y (Ideal.ofBits .f32 0x00000000#32) (ix1 p) = _
  rw [Ideal.hostReduceAdd_single h' h, Ideal.ofBits_zero_f32, zero_add]
  exact Finset.sum_congr rfl fun k _ => congrArg y (lift_row' h p k)

/-- The row maxima as the host takes them: the fold from minus infinity, compared once more with minus infinity. -/
abbrev hostMx {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![]) : FVec Ideal ⟨1, ![A]⟩ .f32 :=
  maximumf (broadcastInDim ⟨1, ![A]⟩ ![] hbs (constant (⟨0, ![]⟩ : Shape) .f32 0xFF800000#32))
    (Host.reduce FloatOps.maximumf y (constant (⟨0, ![]⟩ : Shape) .f32 0xFF800000#32) h' hu)

/-- The array with each row's maximum subtracted, as the host forms it. -/
abbrev hostShifted {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) : FVec Ideal ⟨2, ![A, B]⟩ .f32 :=
  subf y (broadcastInDim ⟨2, ![A, B]⟩ ![0, 1] hbr (broadcastInDim ⟨2, ![A, 1]⟩ ![0] hbc (hostMx y h' hu hbs)))

theorem hostMx_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![]) (p : Fin A) :
    hostMx y h' hu hbs (ix1 p) = rowMax fun c => y (ix2 p c) := by
  show max (broadcastInDim ⟨1, ![A]⟩ ![] hbs (constant (⟨0, ![]⟩ : Shape) .f32 0xFF800000#32) (ix1 p))
    (Host.reduce FloatOps.maximumf y (constant (⟨0, ![]⟩ : Shape) .f32 0xFF800000#32) h' hu (ix1 p)) = _
  rw [Cert.BroadcastInDim.scalar_apply, hostRowMax_apply]
  exact max_negInf _

theorem hostShifted_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) (p : Fin A) (c : Fin B) :
    hostShifted y h' hu hbs hbc hbr (ix2 p c) = y (ix2 p c) - rowMax fun c => y (ix2 p c) := by
  show y (ix2 p c) - broadcastInDim ⟨2, ![A, B]⟩ ![0, 1] hbr (broadcastInDim ⟨2, ![A, 1]⟩ ![0] hbc (hostMx y h' hu hbs)) (ix2 p c) = _
  rw [Cert.BroadcastInDim.rows_apply, Cert.BroadcastInDim.column_apply, hostMx_apply]

/-- The host's log-softmax of an array `y` of pre-activations, at (p, q): the log-softmax of row `p`. -/
theorem hostLogSoftmax_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel)
    (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) (p : Fin A) (q : Fin B) :
    (subf (hostShifted y h' hu hbs hbc hbr)
      (broadcastInDim ⟨2, ![A, B]⟩ ![0, 1] hbr (Host.log (broadcastInDim ⟨2, ![A, 1]⟩ ![0] hbc
        (Host.reduceAdd (Host.exp (hostShifted y h' hu hbs hbc hbr)) (constant (⟨0, ![]⟩ : Shape) .f32 0x00000000#32) h' hu))))
      : FVec Ideal ⟨2, ![A, B]⟩ .f32) (ix2 p q)
      = logSoftmaxRow (fun c => y (ix2 p c)) q := by
  show hostShifted y h' hu hbs hbc hbr (ix2 p q) - broadcastInDim ⟨2, ![A, B]⟩ ![0, 1] hbr (Host.log (broadcastInDim ⟨2, ![A, 1]⟩ ![0] hbc
        (Host.reduceAdd (Host.exp (hostShifted y h' hu hbs hbc hbr)) (constant (⟨0, ![]⟩ : Shape) .f32 0x00000000#32) h' hu))) (ix2 p q) = _
  rw [hostShifted_apply, Cert.BroadcastInDim.rows_apply]
  show _ - Ideal.log (broadcastInDim ⟨2, ![A, 1]⟩ ![0] hbc
        (Host.reduceAdd (Host.exp (hostShifted y h' hu hbs hbc hbr)) (constant (⟨0, ![]⟩ : Shape) .f32 0x00000000#32) h' hu) (ix2 p (0 : Fin 1))) = _
  rw [Cert.BroadcastInDim.column_apply, hostRowSum_apply]
  unfold logSoftmaxRow
  refine congrArg (fun s => (y (ix2 p q) - rowMax fun c => y (ix2 p c)) - Ideal.log s) (Finset.sum_congr rfl fun c _ => ?_)
  show Ideal.exp (hostShifted y h' hu hbs hbc hbr (ix2 p c)) = _
  rw [hostShifted_apply]

/-- The log-softmax of an array of pre-activations, as the operations compose it. -/
abbrev hostLogSoftmaxTerm {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) : FVec Ideal ⟨2, ![A, B]⟩ .f32 :=
  subf (hostShifted y h' hu hbs hbc hbr)
    (broadcastInDim ⟨2, ![A, B]⟩ ![0, 1] hbr (Host.log (broadcastInDim ⟨2, ![A, 1]⟩ ![0] hbc
      (Host.reduceAdd (Host.exp (hostShifted y h' hu hbs hbc hbr)) (constant (⟨0, ![]⟩ : Shape) .f32 0x00000000#32) h' hu))))

end Cert.LogSoftmax

end
-- ==== Proof.SageSpec.lean ====
/-
  One layer of the graph network, entry by entry, over the extended reals.

  A layer takes the neighbour sums `agg` and the features `h` (both [N, K]), a per-node scale `invd` (the reciprocal of
  the degree plus one), weights `W` ([K, M]) and a bias `b`. Its pre-activation at node `p`, output `q` is
      lin p q = (∑ k, ((agg p k + h p k) · invd p) · W k q) + b q.
  The two hidden layers clamp it below at zero; the last layer takes the logarithm of the softmax along each row,
  computed the stable way: subtract the row's maximum `mx`, then subtract log ∑ exp (· − mx).
  These are stated once, as functions of arrays, so that a tiled computation of a block of rows and an untiled computation
  of all rows can both be read as THIS function at the row in question.
-/
import Idealize.ShloMosaic.PureOps.Ideal
import Idealize.ShloMosaic.Lib.ValueIdx
import proofs.«123428_j68805376082494_1_alg».proof.Proof.LibLogSoftmax

open scoped BigOperators

noncomputable section

namespace Cert.Sage

open Idealize.ShloMosaic Idealize.ShloMosaic.ValueIdx Cert.LogSoftmax

/-- The pre-activation of one layer at node `p`, output feature `q`. -/
def lin {N K M : ℕ} (agg h : (⟨2, ![N, K]⟩ : Shape).Idx → EReal) (invd : Fin N → EReal)
    (W : (⟨2, ![K, M]⟩ : Shape).Idx → EReal) (b : Fin M → EReal) (p : Fin N) (q : Fin M) : EReal :=
  (∑ k : Fin K, ((agg (ix2 p k) + h (ix2 p k)) * invd p) * W (ix2 k q)) + b q

/-- A hidden layer: the pre-activation clamped below at zero, as an [N, M] array. -/
def reluLayer {N K M : ℕ} (agg h : (⟨2, ![N, K]⟩ : Shape).Idx → EReal) (invd : Fin N → EReal)
    (W : (⟨2, ![K, M]⟩ : Shape).Idx → EReal) (b : Fin M → EReal) : (⟨2, ![N, M]⟩ : Shape).Idx → EReal :=
  fun i => max (lin agg h invd W b (i 0) (i 1)) 0

/-- The last layer: the log-softmax of each row of pre-activations, as an [N, M] array. -/
def logSoftmaxLayer {N K M : ℕ} (agg h : (⟨2, ![N, K]⟩ : Shape).Idx → EReal) (invd : Fin N → EReal)
    (W : (⟨2, ![K, M]⟩ : Shape).Idx → EReal) (b : Fin M → EReal) : (⟨2, ![N, M]⟩ : Shape).Idx → EReal :=
  fun i => logSoftmaxRow (lin agg h invd W b (i 0)) (i 1)

end Cert.Sage

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«123428_j68805376082494_1_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.KernelBlock.lean ====
/-
  A block of rows through one layer, read entry by entry.

  A tile of the kernel holds `A` rows of the neighbour sums and of the features, the rows' scales as an [A, 1] column, the
  whole weight matrix and the bias as a [1, B] row. What it computes, at row `p` and column `q` of the tile, is the layer's
  pre-activation `lin` of THESE rows: the product accumulated into a zero tile is the plain sum over the contracted axis
  (both roundings to a narrower format are the identity on exact values), the column is read at (p, 0) by its broadcast, and
  the bias row at (0, q). The hidden layers clamp at zero; the last layer takes the log-softmax along each row of the
  pre-activations.
-/
import proofs.«123428_j68805376082494_1_alg».proof.Proof.SageSpec
import proofs.«123428_j68805376082494_1_alg».proof.Proof.LibDotSums
import proofs.«123428_j68805376082494_1_alg».proof.Proof.LibColumnLayout
import Idealize.ShloMosaic.Lib.ValueLayout
import Idealize.ShloMosaic.Lib.IdealHost
import Idealize.ShloMosaic.Lib.Pipeline.Value
import Idealize.ShloMosaic.PureOps.Ideal.Laws

open scoped BigOperators

noncomputable section

namespace Cert.Sage

open Idealize.ShloMosaic Idealize.ShloMosaic.ValueIdx Cert.LogSoftmax

/-- The pre-activation at a node depends only on that node's row of sums and features and on its scale. -/
theorem lin_congr {N N' K M : ℕ} (agg h : (⟨2, ![N, K]⟩ : Shape).Idx → EReal) (agg' h' : (⟨2, ![N', K]⟩ : Shape).Idx → EReal)
    (invd : Fin N → EReal) (invd' : Fin N' → EReal) (W : (⟨2, ![K, M]⟩ : Shape).Idx → EReal) (b : Fin M → EReal)
    (p : Fin N) (p' : Fin N') (ha : ∀ k, agg (ix2 p k) = agg' (ix2 p' k)) (hh : ∀ k, h (ix2 p k) = h' (ix2 p' k))
    (hi : invd p = invd' p') (q : Fin M) : lin agg h invd W b p q = lin agg' h' invd' W b p' q := by
  unfold lin
  rw [hi]
  exact congrArg (· + b q) (Finset.sum_congr rfl fun k _ => by rw [ha k, hh k])

variable {A K B : ℕ} (D : DotDims ⟨2, ![A, K]⟩ ⟨2, ![K, B]⟩ ⟨2, ![A, B]⟩)

/-- The tile's pre-activation at (p, q): `lin` of the tile's rows. -/
theorem preBlock_apply
    (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = K)
    (x0 x1 : FVec Ideal ⟨2, ![A, K]⟩ .f32) (x2 : FVec Ideal ⟨2, ![A, 1]⟩ .f32) (x3 : FVec Ideal ⟨2, ![K, B]⟩ .f32)
    (x4 : FVec Ideal ⟨2, ![1, B]⟩ .f32)
    (hb2 : (⟨2, ![A, 1]⟩ : Shape).Broadcasts ⟨2, ![A, K]⟩) (hb4 : (⟨2, ![1, B]⟩ : Shape).Broadcasts ⟨2, ![A, B]⟩)
    (ht : FTy.bf16.bits < FTy.f32.bits) (p : Fin A) (q : Fin B) :
    (addf (matmul D none (truncf .bf16 (mulf (addf x0 x1) (broadcastTo ⟨2, ![A, K]⟩ x2 hb2)) ht) (truncf .bf16 x3 ht)
        (constant ⟨2, ![A, B]⟩ .f32 0x00000000#32)) (broadcastTo ⟨2, ![A, B]⟩ x4 hb4) : FVec Ideal ⟨2, ![A, B]⟩ .f32) (ix2 p q)
      = lin x0 x1 (fun r => x2 (ix2 r (0 : Fin 1))) x3 (fun c => x4 (ix2 (0 : Fin 1) c)) p q := by
  show FloatOps.matmul D none (truncf .bf16 (mulf (addf x0 x1) (broadcastTo ⟨2, ![A, K]⟩ x2 hb2)) ht) (truncf .bf16 x3 ht)
      (constant ⟨2, ![A, B]⟩ .f32 0x00000000#32) (ix2 p q) + broadcastTo ⟨2, ![A, B]⟩ x4 hb4 (ix2 p q) = _
  rw [Cert.DotSums.matmul_zero_ix2 D none hlb hln hlc hrb hrn hrc hr hs, broadcastTo_1b_ab_apply]
  unfold lin
  refine congrArg (· + x4 (ix2 (0 : Fin 1) q)) (Finset.sum_congr rfl fun k _ => ?_)
  show ((x0 (ix2 p k) + x1 (ix2 p k)) * broadcastTo ⟨2, ![A, K]⟩ x2 hb2 (ix2 p k)) * x3 (ix2 k q) = _
  rw [Cert.ColumnLayout.broadcastTo_a1_ab_apply]

/-- A hidden layer's tile at (p, q): the pre-activation of the tile's rows clamped at zero. -/
theorem reluBlock_apply
    (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = K)
    (x0 x1 : FVec Ideal ⟨2, ![A, K]⟩ .f32) (x2 : FVec Ideal ⟨2, ![A, 1]⟩ .f32) (x3 : FVec Ideal ⟨2, ![K, B]⟩ .f32)
    (x4 : FVec Ideal ⟨2, ![1, B]⟩ .f32)
    (hb2 : (⟨2, ![A, 1]⟩ : Shape).Broadcasts ⟨2, ![A, K]⟩) (hb4 : (⟨2, ![1, B]⟩ : Shape).Broadcasts ⟨2, ![A, B]⟩)
    (ht : FTy.bf16.bits < FTy.f32.bits) (p : Fin A) (q : Fin B) :
    (maximumf (addf (matmul D none (truncf .bf16 (mulf (addf x0 x1) (broadcastTo ⟨2, ![A, K]⟩ x2 hb2)) ht) (truncf .bf16 x3 ht)
        (constant ⟨2, ![A, B]⟩ .f32 0x00000000#32)) (broadcastTo ⟨2, ![A, B]⟩ x4 hb4))
      (broadcast ⟨2, ![A, B]⟩ (Scalar.ofBits .f32 0x00000000#32)) : FVec Ideal ⟨2, ![A, B]⟩ .f32) (ix2 p q)
      = max (lin x0 x1 (fun r => x2 (ix2 r (0 : Fin 1))) x3 (fun c => x4 (ix2 (0 : Fin 1) c)) p q) 0 := by
  show max ((addf (matmul D none (truncf .bf16 (mulf (addf x0 x1) (broadcastTo ⟨2, ![A, K]⟩ x2 hb2)) ht) (truncf .bf16 x3 ht)
        (constant ⟨2, ![A, B]⟩ .f32 0x00000000#32)) (broadcastTo ⟨2, ![A, B]⟩ x4 hb4) : FVec Ideal ⟨2, ![A, B]⟩ .f32) (ix2 p q))
      (Ideal.ofBits .f32 0x00000000#32) = _
  rw [preBlock_apply D hlb hln hlc hrb hrn hrc hr hs, Ideal.ofBits_zero_f32]

end Cert.Sage

end
-- ==== Proof.Region0.lean ====
/-
  Region 0: the first hidden layer, tile by tile, is the layer over all rows.

  The region's grid has 25 points; point `t` is handed rows 2000·t … 2000·t + 1999 of the neighbour sums, of the
  features and of the scale column, the whole weight matrix and the bias row, and writes the same rows of the result. A
  tile's entry (p, q) is the pre-activation of ITS row `p` clamped at zero, and the pre-activation at a node depends only on
  that node's row: so point `t` writes block `t` of the whole-array layer, the 25 blocks tile the 50000 rows, and the array
  the region leaves is the layer of the arrays it found.
-/
import proofs.«123428_j68805376082494_1_alg».proof.Proof.Gen.KernelIdeal.Frame
import proofs.«123428_j68805376082494_1_alg».proof.Proof.KernelBlock
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Sage0

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows and the result window sit at block (t, 0), the weights
    and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays the region finds: what its result array ends holding. -/
def out (c : Dev nD) : S50000x256.Idx → EReal :=
  reluLayer (N := 50000) (K := 128) (M := 256) (V c main_v18 : S50000x128.Idx → EReal) (V c main_arg0 : S50000x128.Idx → EReal)
    (fun r => (V c main_v8 : S50000x1.Idx → EReal) (ix2 r (0 : Fin 1))) (V c main_arg3 : S128x256.Idx → EReal)
    (fun q => (V c main_v19 : S1x256.Idx → EReal) (ix2 (0 : Fin 1) q))

/-- Window 0's block at point `t` is rows 2000·t … of the neighbour sums. -/
theorem rows0 (c : Dev nD) (t : Fin cfg0.N) (y : S2000x128.Idx) (k : S50000x128.Idx)
    (hk0 : (k 0).val = 2000 * t.val + (y 0).val) (hk1 : (k 1).val = (y 1).val) :
    (iblk0 V c 0 t : S2000x128.Idx → EReal) y = (V c main_v18 : S50000x128.Idx → EReal) k := by
  obtain ⟨e00, e01, -⟩ := idx_facts t
  unfold iblk0
  rw [View.read_apply]
  show V c main_v18 _ = V c main_v18 _
  congr 1
  funext a
  apply Fin.ext
  match a with
  | ⟨0, _⟩ => show win0_0.index t 0 * 2000 + 1 * (y 0).val = (k 0).val; rw [e00, hk0]; omega
  | ⟨1, _⟩ => show win0_0.index t 1 * 128 + 1 * (y 1).val = (k 1).val; rw [e01, hk1]; omega

/-- Window 1's block at point `t` is the same rows of the features. -/
theorem rows1 (c : Dev nD) (t : Fin cfg0.N) (y : S2000x128.Idx) (k : S50000x128.Idx)
    (hk0 : (k 0).val = 2000 * t.val + (y 0).val) (hk1 : (k 1).val = (y 1).val) :
    (iblk0 V c 1 t : S2000x128.Idx → EReal) y = (V c main_arg0 : S50000x128.Idx → EReal) k := by
  obtain ⟨-, -, e10, e11, -⟩ := idx_facts t
  unfold iblk0
  rw [View.read_apply]
  show V c main_arg0 _ = V c main_arg0 _
  congr 1
  funext a
  apply Fin.ext
  match a with
  | ⟨0, _⟩ => show win0_1.index t 0 * 2000 + 1 * (y 0).val = (k 0).val; rw [e10, hk0]; omega
  | ⟨1, _⟩ => show win0_1.index t 1 * 128 + 1 * (y 1).val = (k 1).val; rw [e11, hk1]; omega

/-- Window 2's block at point `t` is the same rows of the scale column. -/
theorem rows2 (c : Dev nD) (t : Fin cfg0.N) (y : S2000x1.Idx) (k : S50000x1.Idx)
    (hk0 : (k 0).val = 2000 * t.val + (y 0).val) (hk1 : (k 1).val = (y 1).val) :
    (iblk0 V c 2 t : S2000x1.Idx → EReal) y = (V c main_v8 : S50000x1.Idx → EReal) k := by
  obtain ⟨-, -, -, -, e20, e21, -⟩ := idx_facts t
  unfold iblk0
  rw [View.read_apply]
  show V c main_v8 _ = V c main_v8 _
  congr 1
  funext a
  apply Fin.ext
  match a with
  | ⟨0, _⟩ => show win0_2.index t 0 * 2000 + 1 * (y 0).val = (k 0).val; rw [e20, hk0]; omega
  | ⟨1, _⟩ => show win0_2.index t 1 * 1 + 1 * (y 1).val = (k 1).val; rw [e21, hk1]; omega

/-- Window 3's block at every point is the whole weight matrix. -/
theorem whole3 (c : Dev nD) (t : Fin cfg0.N) :
    (iblk0 V c 3 t : S128x256.Idx → EReal) = (V c main_arg3 : S128x256.Idx → EReal) := by
  obtain ⟨-, -, -, -, -, -, e30, e31, -⟩ := idx_facts t
  funext y
  unfold iblk0
  rw [View.read_apply]
  show V c main_arg3 _ = V c main_arg3 y
  congr 1
  funext a
  apply Fin.ext
  match a with
  | ⟨0, _⟩ => show win0_3.index t 0 * 128 + 1 * (y 0).val = (y 0).val; rw [e30]; omega
  | ⟨1, _⟩ => show win0_3.index t 1 * 256 + 1 * (y 1).val = (y 1).val; rw [e31]; omega

/-- Window 4's block at every point is the whole bias row. -/
theorem whole4 (c : Dev nD) (t : Fin cfg0.N) :
    (iblk0 V c 4 t : S1x256.Idx → EReal) = (V c main_v19 : S1x256.Idx → EReal) := by
  obtain ⟨-, -, -, -, -, -, -, -, e40, e41, -⟩ := idx_facts t
  funext y
  unfold iblk0
  rw [View.read_apply]
  show V c main_v19 _ = V c main_v19 y
  congr 1
  funext a
  apply Fin.ext
  match a with
  | ⟨0, _⟩ => show win0_4.index t 0 * 1 + 1 * (y 0).val = (y 0).val; rw [e40]; omega
  | ⟨1, _⟩ => show win0_4.index t 1 * 256 + 1 * (y 1).val = (y 1).val; rw [e41]; omega

/-- The tile's arithmetic at (p, q): the pre-activation of the tile's row `p`, clamped at zero. -/
theorem pay_eq (x0 x1 : FVec Ideal S2000x128 .f32) (x2 : FVec Ideal S2000x1 .f32) (x3 : FVec Ideal S128x256 .f32)
    (x4 : FVec Ideal S1x256 .f32) (p : Fin 2000) (q : Fin 256) :
    (k0_pay1 (F := Ideal) x0 x1 x2 x3 x4 : S2000x256.Idx → EReal) (ix2 p q)
      = max (lin (N := 2000) (K := 128) (M := 256) x0 x1 (fun r => x2 (ix2 r (0 : Fin 1))) x3 (fun c => x4 (ix2 (0 : Fin 1) c)) p q) 0 := by
  unfold k0_pay1
  simp only [shapeCast_self]
  exact reluBlock_apply dot_S2000x128_S128x256_S2000x256_1_0_0_1_n_n rfl rfl rfl rfl rfl rfl rfl rfl x0 x1 x2 x3 x4 _ _ _ p q

/-- What point `t` computes at (p, q) is the whole-array layer at row 2000·t + p. -/
theorem point_eq (c : Dev nD) (t : Fin cfg0.N) (y : S2000x256.Idx) :
    k0_pay1 (iblk0 V c 0 t) (iblk0 V c 1 t) (iblk0 V c 2 t) (iblk0 V c 3 t) (iblk0 V c 4 t) y
      = out V c (((cfg0.win 5).blk t).view.emb y) := by
  obtain ⟨p, q, rfl⟩ : ∃ (p : Fin 2000) (q : Fin 256), y = ix2 p q := ⟨y 0, y 1, eq_ix2 y⟩
  obtain ⟨-, -, -, -, -, -, -, -, -, -, e50, e51⟩ := idx_facts t
  have hN : cfg0.N = 25 := N_0
  have hP : 2000 * t.val + p.val < 50000 := by have := t.isLt; have := p.isLt; omega
  have hemb : ((cfg0.win 5).blk t).view.emb (ix2 p q) = ix2 (⟨2000 * t.val + p.val, hP⟩ : Fin 50000) q := by
    funext a
    apply Fin.ext
    match a with
    | ⟨0, _⟩ => show win0_5.index t 0 * 2000 + 1 * p.val = 2000 * t.val + p.val; rw [e50]; omega
    | ⟨1, _⟩ => show win0_5.index t 1 * 256 + 1 * q.val = q.val; rw [e51]; omega
  rw [hemb]
  refine (pay_eq (iblk0 V c 0 t) (iblk0 V c 1 t) (iblk0 V c 2 t) (iblk0 V c 3 t) (iblk0 V c 4 t) p q).trans ?_
  rw [whole3 V c t, whole4 V c t]
  show max _ 0 = max _ 0
  refine congrArg (fun z => max z 0) ?_
  exact lin_congr _ _ _ _ _ _ _ _ p ⟨2000 * t.val + p.val, hP⟩ (fun k => rows0 V c t _ _ rfl rfl) (fun k => rows1 V c t _ _ rfl rfl)
    (rows2 V c t _ _ rfl rfl) q

/-- WHAT POINT `t` WRITES BACK is block `t` of the layer of the arrays the region finds. -/
theorem flushed (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S2000x1) hz, View.ld_unit_zero (S := S128x256) hz,
    View.ld_unit_zero (S := S1x256) hz]
  funext j
  exact point_eq V c t j

/-- An index of the result array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v20).slice (win0_5.rect t)).set ↔ _
  rw [View.set_slice_whole, Rect.mem_set_unit]
  exact Iff.rfl

/-- Row `r` of the result lies in the block of point `r / 2000`: the 25 blocks tile the array. -/
theorem cover (i : S50000x256.Idx) : ∃ t : Fin cfg0.N, (cfg0.win 5).flush t = true ∧ i ∈ ((cfg0.win 5).blk t).view.set := by
  have hN : cfg0.N = 25 := N_0
  have hi0 : (i 0).val < 50000 := (i 0).isLt
  have hi1 : (i 1).val < 256 := (i 1).isLt
  have ht : (i 0).val / 2000 < cfg0.N := by rw [hN]; omega
  refine ⟨⟨(i 0).val / 2000, ht⟩, flush0_5 _, ?_⟩
  rw [mem_blk]
  obtain ⟨-, -, -, -, -, -, -, -, -, -, e50, e51⟩ := idx_facts ⟨(i 0).val / 2000, ht⟩
  intro a
  match a with
  | ⟨0, _⟩ =>
    show win0_5.index ⟨(i 0).val / 2000, ht⟩ 0 * 2000 ≤ (i 0).val ∧ (i 0).val < win0_5.index ⟨(i 0).val / 2000, ht⟩ 0 * 2000 + 2000
    rw [e50]
    show (i 0).val / 2000 * 2000 ≤ (i 0).val ∧ (i 0).val < (i 0).val / 2000 * 2000 + 2000
    omega
  | ⟨1, _⟩ =>
    show win0_5.index ⟨(i 0).val / 2000, ht⟩ 1 * 256 ≤ (i 1).val ∧ (i 1).val < win0_5.index ⟨(i 0).val / 2000, ht⟩ 1 * 256 + 256
    rw [e51]
    omega

/-- THE RESULT ARRAY after the region: the layer of the arrays the region found. -/
theorem final (c : Dev nD) : (dat0 V c).arrAt 5 cfg0.N = out V c :=
  (dat0 V c).arrAt_eq_of_cover 5 (out V c) (fun t _ => flushed V c t) cover

/-- The same, with the arrays the region finds given by name: the sums, the features, the scale of each node, the weights
    and the bias of each output. -/
theorem final_of (c : Dev nD) (agg h : S50000x128.Idx → EReal) (invd : Fin 50000 → EReal) (W : S128x256.Idx → EReal) (b : Fin 256 → EReal)
    (h0 : (V c main_v18 : S50000x128.Idx → EReal) = agg) (h1 : (V c main_arg0 : S50000x128.Idx → EReal) = h)
    (h2 : ∀ r : Fin 50000, (V c main_v8 : S50000x1.Idx → EReal) (ix2 r (0 : Fin 1)) = invd r)
    (h3 : (V c main_arg3 : S128x256.Idx → EReal) = W)
    (h4 : ∀ q : Fin 256, (V c main_v19 : S1x256.Idx → EReal) (ix2 (0 : Fin 1) q) = b q) :
    (dat0 V c).arrAt 5 cfg0.N = reluLayer (N := 50000) (K := 128) (M := 256) agg h invd W b := by
  subst h0 h1 h3
  obtain rfl : (fun r => (V c main_v8 : S50000x1.Idx → EReal) (ix2 r (0 : Fin 1))) = invd := funext h2
  obtain rfl : (fun q => (V c main_v19 : S1x256.Idx → EReal) (ix2 (0 : Fin 1) q)) = b := funext h4
  exact final V c

end Cert.KernelIdeal.Sage0

end
-- ==== Proof.Region1.lean ====
/-
  Region 1: the second hidden layer, tile by tile, is the layer over all rows.

  The region's grid has 25 points; point `t` is handed rows 2000·t … 2000·t + 1999 of the neighbour sums, of the
  features and of the scale column, the whole weight matrix and the bias row, and writes the same rows of the result. A
  tile's entry (p, q) is the pre-activation of ITS row `p` clamped at zero, and the pre-activation at a node depends only on
  that node's row: so point `t` writes block `t` of the whole-array layer, the 25 blocks tile the 50000 rows, and the array
  the region leaves is the layer of the arrays it found.
-/
import proofs.«123428_j68805376082494_1_alg».proof.Proof.Gen.KernelIdeal.Frame
import proofs.«123428_j68805376082494_1_alg».proof.Proof.KernelBlock
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Sage1

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows and the result window sit at block (t, 0), the weights
    and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the arrays the region finds: what its result array ends holding. -/
def out (c : Dev nD) : S50000x256.Idx → EReal :=
  reluLayer (N := 50000) (K := 256) (M := 256) (V c main_v30 : S50000x256.Idx → EReal) (V c main_v20 : S50000x256.Idx → EReal)
    (fun r => (V c main_v8 : S50000x1.Idx → EReal) (ix2 r (0 : Fin 1))) (V c main_arg5 : S256x256.Idx → EReal)
    (fun q => (V c main_v31 : S1x256.Idx → EReal) (ix2 (0 : Fin 1) q))

/-- Window 0's block at point `t` is rows 2000·t … of the neighbour sums. -/
theorem rows0 (c : Dev nD) (t : Fin cfg1.N) (y : S2000x256.Idx) (k : S50000x256.Idx)
    (hk0 : (k 0).val = 2000 * t.val + (y 0).val) (hk1 : (k 1).val = (y 1).val) :
    (iblk1 V c 0 t : S2000x256.Idx → EReal) y = (V c main_v30 : S50000x256.Idx → EReal) k := by
  obtain ⟨e00, e01, -⟩ := idx_facts t
  unfold iblk1
  rw [View.read_apply]
  show V c main_v30 _ = V c main_v30 _
  congr 1
  funext a
  apply Fin.ext
  match a with
  | ⟨0, _⟩ => show win1_0.index t 0 * 2000 + 1 * (y 0).val = (k 0).val; rw [e00, hk0]; omega
  | ⟨1, _⟩ => show win1_0.index t 1 * 256 + 1 * (y 1).val = (k 1).val; rw [e01, hk1]; omega

/-- Window 1's block at point `t` is the same rows of the features. -/
theorem rows1 (c : Dev nD) (t : Fin cfg1.N) (y : S2000x256.Idx) (k : S50000x256.Idx)
    (hk0 : (k 0).val = 2000 * t.val + (y 0).val) (hk1 : (k 1).val = (y 1).val) :
    (iblk1 V c 1 t : S2000x256.Idx → EReal) y = (V c main_v20 : S50000x256.Idx → EReal) k := by
  obtain ⟨-, -, e10, e11, -⟩ := idx_facts t
  unfold iblk1
  rw [View.read_apply]
  show V c main_v20 _ = V c main_v20 _
  congr 1
  funext a
  apply Fin.ext
  match a with
  | ⟨0, _⟩ => show win1_1.index t 0 * 2000 + 1 * (y 0).val = (k 0).val; rw [e10, hk0]; omega
  | ⟨1, _⟩ => show win1_1.index t 1 * 256 + 1 * (y 1).val = (k 1).val; rw [e11, hk1]; omega

/-- Window 2's block at point `t` is the same rows of the scale column. -/
theorem rows2 (c : Dev nD) (t : Fin cfg1.N) (y : S2000x1.Idx) (k : S50000x1.Idx)
    (hk0 : (k 0).val = 2000 * t.val + (y 0).val) (hk1 : (k 1).val = (y 1).val) :
    (iblk1 V c 2 t : S2000x1.Idx → EReal) y = (V c main_v8 : S50000x1.Idx → EReal) k := by
  obtain ⟨-, -, -, -, e20, e21, -⟩ := idx_facts t
  unfold iblk1
  rw [View.read_apply]
  show V c main_v8 _ = V c main_v8 _
  congr 1
  funext a
  apply Fin.ext
  match a with
  | ⟨0, _⟩ => show win1_2.index t 0 * 2000 + 1 * (y 0).val = (k 0).val; rw [e20, hk0]; omega
  | ⟨1, _⟩ => show win1_2.index t 1 * 1 + 1 * (y 1).val = (k 1).val; rw [e21, hk1]; omega

/-- Window 3's block at every point is the whole weight matrix. -/
theorem whole3 (c : Dev nD) (t : Fin cfg1.N) :
    (iblk1 V c 3 t : S256x256.Idx → EReal) = (V c main_arg5 : S256x256.Idx → EReal) := by
  obtain ⟨-, -, -, -, -, -, e30, e31, -⟩ := idx_facts t
  funext y
  unfold iblk1
  rw [View.read_apply]
  show V c main_arg5 _ = V c main_arg5 y
  congr 1
  funext a
  apply Fin.ext
  match a with
  | ⟨0, _⟩ => show win1_3.index t 0 * 256 + 1 * (y 0).val = (y 0).val; rw [e30]; omega
  | ⟨1, _⟩ => show win1_3.index t 1 * 256 + 1 * (y 1).val = (y 1).val; rw [e31]; omega

/-- Window 4's block at every point is the whole bias row. -/
theorem whole4 (c : Dev nD) (t : Fin cfg1.N) :
    (iblk1 V c 4 t : S1x256.Idx → EReal) = (V c main_v31 : S1x256.Idx → EReal) := by
  obtain ⟨-, -, -, -, -, -, -, -, e40, e41, -⟩ := idx_facts t
  funext y
  unfold iblk1
  rw [View.read_apply]
  show V c main_v31 _ = V c main_v31 y
  congr 1
  funext a
  apply Fin.ext
  match a with
  | ⟨0, _⟩ => show win1_4.index t 0 * 1 + 1 * (y 0).val = (y 0).val; rw [e40]; omega
  | ⟨1, _⟩ => show win1_4.index t 1 * 256 + 1 * (y 1).val = (y 1).val; rw [e41]; omega

/-- The tile's arithmetic at (p, q): the pre-activation of the tile's row `p`, clamped at zero. -/
theorem pay_eq (x0 x1 : FVec Ideal S2000x256 .f32) (x2 : FVec Ideal S2000x1 .f32) (x3 : FVec Ideal S256x256 .f32)
    (x4 : FVec Ideal S1x256 .f32) (p : Fin 2000) (q : Fin 256) :
    (k1_pay1 (F := Ideal) x0 x1 x2 x3 x4 : S2000x256.Idx → EReal) (ix2 p q)
      = max (lin (N := 2000) (K := 256) (M := 256) x0 x1 (fun r => x2 (ix2 r (0 : Fin 1))) x3 (fun c => x4 (ix2 (0 : Fin 1) c)) p q) 0 := by
  unfold k1_pay1
  simp only [shapeCast_self]
  exact reluBlock_apply dot_S2000x256_S256x256_S2000x256_1_0_0_1_n_n rfl rfl rfl rfl rfl rfl rfl rfl x0 x1 x2 x3 x4 _ _ _ p q

/-- What point `t` computes at (p, q) is the whole-array layer at row 2000·t + p. -/
theorem point_eq (c : Dev nD) (t : Fin cfg1.N) (y : S2000x256.Idx) :
    k1_pay1 (iblk1 V c 0 t) (iblk1 V c 1 t) (iblk1 V c 2 t) (iblk1 V c 3 t) (iblk1 V c 4 t) y
      = out V c (((cfg1.win 5).blk t).view.emb y) := by
  obtain ⟨p, q, rfl⟩ : ∃ (p : Fin 2000) (q : Fin 256), y = ix2 p q := ⟨y 0, y 1, eq_ix2 y⟩
  obtain ⟨-, -, -, -, -, -, -, -, -, -, e50, e51⟩ := idx_facts t
  have hN : cfg1.N = 25 := N_1
  have hP : 2000 * t.val + p.val < 50000 := by have := t.isLt; have := p.isLt; omega
  have hemb : ((cfg1.win 5).blk t).view.emb (ix2 p q) = ix2 (⟨2000 * t.val + p.val, hP⟩ : Fin 50000) q := by
    funext a
    apply Fin.ext
    match a with
    | ⟨0, _⟩ => show win1_5.index t 0 * 2000 + 1 * p.val = 2000 * t.val + p.val; rw [e50]; omega
    | ⟨1, _⟩ => show win1_5.index t 1 * 256 + 1 * q.val = q.val; rw [e51]; omega
  rw [hemb]
  refine (pay_eq (iblk1 V c 0 t) (iblk1 V c 1 t) (iblk1 V c 2 t) (iblk1 V c 3 t) (iblk1 V c 4 t) p q).trans ?_
  rw [whole3 V c t, whole4 V c t]
  show max _ 0 = max _ 0
  refine congrArg (fun z => max z 0) ?_
  exact lin_congr _ _ _ _ _ _ _ _ p ⟨2000 * t.val + p.val, hP⟩ (fun k => rows0 V c t _ _ rfl rfl) (fun k => rows1 V c t _ _ rfl rfl)
    (rows2 V c t _ _ rfl rfl) q

/-- WHAT POINT `t` WRITES BACK is block `t` of the layer of the arrays the region finds. -/
theorem flushed (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S2000x1) hz, View.ld_unit_zero (S := S256x256) hz,
    View.ld_unit_zero (S := S1x256) hz]
  funext j
  exact point_eq V c t j

/-- An index of the result array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v32).slice (win1_5.rect t)).set ↔ _
  rw [View.set_slice_whole, Rect.mem_set_unit]
  exact Iff.rfl

/-- Row `r` of the result lies in the block of point `r / 2000`: the 25 blocks tile the array. -/
theorem cover (i : S50000x256.Idx) : ∃ t : Fin cfg1.N, (cfg1.win 5).flush t = true ∧ i ∈ ((cfg1.win 5).blk t).view.set := by
  have hN : cfg1.N = 25 := N_1
  have hi0 : (i 0).val < 50000 := (i 0).isLt
  have hi1 : (i 1).val < 256 := (i 1).isLt
  have ht : (i 0).val / 2000 < cfg1.N := by rw [hN]; omega
  refine ⟨⟨(i 0).val / 2000, ht⟩, flush1_5 _, ?_⟩
  rw [mem_blk]
  obtain ⟨-, -, -, -, -, -, -, -, -, -, e50, e51⟩ := idx_facts ⟨(i 0).val / 2000, ht⟩
  intro a
  match a with
  | ⟨0, _⟩ =>
    show win1_5.index ⟨(i 0).val / 2000, ht⟩ 0 * 2000 ≤ (i 0).val ∧ (i 0).val < win1_5.index ⟨(i 0).val / 2000, ht⟩ 0 * 2000 + 2000
    rw [e50]
    show (i 0).val / 2000 * 2000 ≤ (i 0).val ∧ (i 0).val < (i 0).val / 2000 * 2000 + 2000
    omega
  | ⟨1, _⟩ =>
    show win1_5.index ⟨(i 0).val / 2000, ht⟩ 1 * 256 ≤ (i 1).val ∧ (i 1).val < win1_5.index ⟨(i 0).val / 2000, ht⟩ 1 * 256 + 256
    rw [e51]
    omega

/-- THE RESULT ARRAY after the region: the layer of the arrays the region found. -/
theorem final (c : Dev nD) : (dat1 V c).arrAt 5 cfg1.N = out V c :=
  (dat1 V c).arrAt_eq_of_cover 5 (out V c) (fun t _ => flushed V c t) cover

/-- The same, with the arrays the region finds given by name: the sums, the features, the scale of each node, the weights
    and the bias of each output. -/
theorem final_of (c : Dev nD) (agg h : S50000x256.Idx → EReal) (invd : Fin 50000 → EReal) (W : S256x256.Idx → EReal) (b : Fin 256 → EReal)
    (h0 : (V c main_v30 : S50000x256.Idx → EReal) = agg) (h1 : (V c main_v20 : S50000x256.Idx → EReal) = h)
    (h2 : ∀ r : Fin 50000, (V c main_v8 : S50000x1.Idx → EReal) (ix2 r (0 : Fin 1)) = invd r)
    (h3 : (V c main_arg5 : S256x256.Idx → EReal) = W)
    (h4 : ∀ q : Fin 256, (V c main_v31 : S1x256.Idx → EReal) (ix2 (0 : Fin 1) q) = b q) :
    (dat1 V c).arrAt 5 cfg1.N = reluLayer (N := 50000) (K := 256) (M := 256) agg h invd W b := by
  subst h0 h1 h3
  obtain rfl : (fun r => (V c main_v8 : S50000x1.Idx → EReal) (ix2 r (0 : Fin 1))) = invd := funext h2
  obtain rfl : (fun q => (V c main_v31 : S1x256.Idx → EReal) (ix2 (0 : Fin 1) q)) = b := funext h4
  exact final V c

end Cert.KernelIdeal.Sage1

end
-- ==== Proof.Region2.lean ====
/-
  Region 2: the last layer, tile by tile, is the layer over all rows.

  The region's grid has 25 points; point `t` is handed rows 2000·t … 2000·t + 1999 of the neighbour sums, of the
  features and of the scale column, the whole weight matrix and the bias row, and writes the same rows of the result. A
  tile's entry (p, q) is the log-softmax of ITS row `p` of pre-activations, and the pre-activations of a node depend only on
  that node's row: so point `t` writes block `t` of the whole-array layer, the 25 blocks tile the 50000 rows, and the array
  the region leaves is the layer of the arrays it found.
-/
import proofs.«123428_j68805376082494_1_alg».proof.Proof.Gen.KernelIdeal.Frame
import proofs.«123428_j68805376082494_1_alg».proof.Proof.KernelBlock
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Sage2

open Cert.KernelIdeal Cert.KernelIdeal.Gen Cert.Sage Cert.LogSoftmax

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows and the result window sit at block (t, 0), the weights
    and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer of the arrays the region finds: what its result array ends holding. -/
def out (c : Dev nD) : S50000x64.Idx → EReal :=
  logSoftmaxLayer (N := 50000) (K := 256) (M := 64) (V c main_v42 : S50000x256.Idx → EReal) (V c main_v32 : S50000x256.Idx → EReal)
    (fun r => (V c main_v8 : S50000x1.Idx → EReal) (ix2 r (0 : Fin 1))) (V c main_arg7 : S256x64.Idx → EReal)
    (fun q => (V c main_v43 : S1x64.Idx → EReal) (ix2 (0 : Fin 1) q))

/-- Window 0's block at point `t` is rows 2000·t … of the neighbour sums. -/
theorem rows0 (c : Dev nD) (t : Fin cfg2.N) (y : S2000x256.Idx) (k : S50000x256.Idx)
    (hk0 : (k 0).val = 2000 * t.val + (y 0).val) (hk1 : (k 1).val = (y 1).val) :
    (iblk2 V c 0 t : S2000x256.Idx → EReal) y = (V c main_v42 : S50000x256.Idx → EReal) k := by
  obtain ⟨e00, e01, -⟩ := idx_facts t
  unfold iblk2
  rw [View.read_apply]
  show V c main_v42 _ = V c main_v42 _
  congr 1
  funext a
  apply Fin.ext
  match a with
  | ⟨0, _⟩ => show win2_0.index t 0 * 2000 + 1 * (y 0).val = (k 0).val; rw [e00, hk0]; omega
  | ⟨1, _⟩ => show win2_0.index t 1 * 256 + 1 * (y 1).val = (k 1).val; rw [e01, hk1]; omega

/-- Window 1's block at point `t` is the same rows of the features. -/
theorem rows1 (c : Dev nD) (t : Fin cfg2.N) (y : S2000x256.Idx) (k : S50000x256.Idx)
    (hk0 : (k 0).val = 2000 * t.val + (y 0).val) (hk1 : (k 1).val = (y 1).val) :
    (iblk2 V c 1 t : S2000x256.Idx → EReal) y = (V c main_v32 : S50000x256.Idx → EReal) k := by
  obtain ⟨-, -, e10, e11, -⟩ := idx_facts t
  unfold iblk2
  rw [View.read_apply]
  show V c main_v32 _ = V c main_v32 _
  congr 1
  funext a
  apply Fin.ext
  match a with
  | ⟨0, _⟩ => show win2_1.index t 0 * 2000 + 1 * (y 0).val = (k 0).val; rw [e10, hk0]; omega
  | ⟨1, _⟩ => show win2_1.index t 1 * 256 + 1 * (y 1).val = (k 1).val; rw [e11, hk1]; omega

/-- Window 2's block at point `t` is the same rows of the scale column. -/
theorem rows2 (c : Dev nD) (t : Fin cfg2.N) (y : S2000x1.Idx) (k : S50000x1.Idx)
    (hk0 : (k 0).val = 2000 * t.val + (y 0).val) (hk1 : (k 1).val = (y 1).val) :
    (iblk2 V c 2 t : S2000x1.Idx → EReal) y = (V c main_v8 : S50000x1.Idx → EReal) k := by
  obtain ⟨-, -, -, -, e20, e21, -⟩ := idx_facts t
  unfold iblk2
  rw [View.read_apply]
  show V c main_v8 _ = V c main_v8 _
  congr 1
  funext a
  apply Fin.ext
  match a with
  | ⟨0, _⟩ => show win2_2.index t 0 * 2000 + 1 * (y 0).val = (k 0).val; rw [e20, hk0]; omega
  | ⟨1, _⟩ => show win2_2.index t 1 * 1 + 1 * (y 1).val = (k 1).val; rw [e21, hk1]; omega

/-- Window 3's block at every point is the whole weight matrix. -/
theorem whole3 (c : Dev nD) (t : Fin cfg2.N) :
    (iblk2 V c 3 t : S256x64.Idx → EReal) = (V c main_arg7 : S256x64.Idx → EReal) := by
  obtain ⟨-, -, -, -, -, -, e30, e31, -⟩ := idx_facts t
  funext y
  unfold iblk2
  rw [View.read_apply]
  show V c main_arg7 _ = V c main_arg7 y
  congr 1
  funext a
  apply Fin.ext
  match a with
  | ⟨0, _⟩ => show win2_3.index t 0 * 256 + 1 * (y 0).val = (y 0).val; rw [e30]; omega
  | ⟨1, _⟩ => show win2_3.index t 1 * 64 + 1 * (y 1).val = (y 1).val; rw [e31]; omega

/-- Window 4's block at every point is the whole bias row. -/
theorem whole4 (c : Dev nD) (t : Fin cfg2.N) :
    (iblk2 V c 4 t : S1x64.Idx → EReal) = (V c main_v43 : S1x64.Idx → EReal) := by
  obtain ⟨-, -, -, -, -, -, -, -, e40, e41, -⟩ := idx_facts t
  funext y
  unfold iblk2
  rw [View.read_apply]
  show V c main_v43 _ = V c main_v43 y
  congr 1
  funext a
  apply Fin.ext
  match a with
  | ⟨0, _⟩ => show win2_4.index t 0 * 1 + 1 * (y 0).val = (y 0).val; rw [e40]; omega
  | ⟨1, _⟩ => show win2_4.index t 1 * 64 + 1 * (y 1).val = (y 1).val; rw [e41]; omega

/-- The tile's arithmetic at (p, q): the log-softmax of the tile's row `p` of pre-activations. -/
theorem pay_eq (x0 x1 : FVec Ideal S2000x256 .f32) (x2 : FVec Ideal S2000x1 .f32) (x3 : FVec Ideal S256x64 .f32)
    (x4 : FVec Ideal S1x64 .f32) (p : Fin 2000) (q : Fin 64) :
    (k2_pay1 (F := Ideal) x0 x1 x2 x3 x4 : S2000x64.Idx → EReal) (ix2 p q)
      = logSoftmaxRow (lin (N := 2000) (K := 256) (M := 64) x0 x1 (fun r => x2 (ix2 r (0 : Fin 1))) x3 (fun c => x4 (ix2 (0 : Fin 1) c)) p) q := by
  unfold k2_pay1
  simp only [shapeCast_self]
  refine (logSoftmaxBlock_apply (A := 2000) (B := 64) _ reduces_S2000x64_S2000 _ _ _ shapeCasts_S2000_S2000x1 broadcasts_S2000x1_S2000x64 p q).trans ?_
  exact congrArg (fun y => logSoftmaxRow y q) (funext fun c => preBlock_apply dot_S2000x256_S256x64_S2000x64_1_0_0_1_n_n rfl rfl rfl rfl rfl rfl rfl rfl x0 x1 x2 x3 x4 _ _ _ p c)

/-- What point `t` computes at (p, q) is the whole-array layer at row 2000·t + p. -/
theorem point_eq (c : Dev nD) (t : Fin cfg2.N) (y : S2000x64.Idx) :
    k2_pay1 (iblk2 V c 0 t) (iblk2 V c 1 t) (iblk2 V c 2 t) (iblk2 V c 3 t) (iblk2 V c 4 t) y
      = out V c (((cfg2.win 5).blk t).view.emb y) := by
  obtain ⟨p, q, rfl⟩ : ∃ (p : Fin 2000) (q : Fin 64), y = ix2 p q := ⟨y 0, y 1, eq_ix2 y⟩
  obtain ⟨-, -, -, -, -, -, -, -, -, -, e50, e51⟩ := idx_facts t
  have hN : cfg2.N = 25 := N_2
  have hP : 2000 * t.val + p.val < 50000 := by have := t.isLt; have := p.isLt; omega
  have hemb : ((cfg2.win 5).blk t).view.emb (ix2 p q) = ix2 (⟨2000 * t.val + p.val, hP⟩ : Fin 50000) q := by
    funext a
    apply Fin.ext
    match a with
    | ⟨0, _⟩ => show win2_5.index t 0 * 2000 + 1 * p.val = 2000 * t.val + p.val; rw [e50]; omega
    | ⟨1, _⟩ => show win2_5.index t 1 * 64 + 1 * q.val = q.val; rw [e51]; omega
  rw [hemb]
  refine (pay_eq (iblk2 V c 0 t) (iblk2 V c 1 t) (iblk2 V c 2 t) (iblk2 V c 3 t) (iblk2 V c 4 t) p q).trans ?_
  rw [whole3 V c t, whole4 V c t]
  show logSoftmaxRow _ q = logSoftmaxRow _ q
  refine congrArg (fun y => logSoftmaxRow y q) (funext fun c' => ?_)
  exact lin_congr _ _ _ _ _ _ _ _ p ⟨2000 * t.val + p.val, hP⟩ (fun k => rows0 V c t _ _ rfl rfl) (fun k => rows1 V c t _ _ rfl rfl)
    (rows2 V c t _ _ rfl rfl) c'

/-- WHAT POINT `t` WRITES BACK is block `t` of the layer of the arrays the region finds. -/
theorem flushed (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S2000x256) hz, View.ld_unit_zero (S := S2000x1) hz, View.ld_unit_zero (S := S256x64) hz,
    View.ld_unit_zero (S := S1x64) hz]
  funext j
  exact point_eq V c t j

/-- An index of the result array is in point `t`'s block iff each coordinate is in the block's range on its axis. -/
theorem mem_blk (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v44).slice (win2_5.rect t)).set ↔ _
  rw [View.set_slice_whole, Rect.mem_set_unit]
  exact Iff.rfl

/-- Row `r` of the result lies in the block of point `r / 2000`: the 25 blocks tile the array. -/
theorem cover (i : S50000x64.Idx) : ∃ t : Fin cfg2.N, (cfg2.win 5).flush t = true ∧ i ∈ ((cfg2.win 5).blk t).view.set := by
  have hN : cfg2.N = 25 := N_2
  have hi0 : (i 0).val < 50000 := (i 0).isLt
  have hi1 : (i 1).val < 64 := (i 1).isLt
  have ht : (i 0).val / 2000 < cfg2.N := by rw [hN]; omega
  refine ⟨⟨(i 0).val / 2000, ht⟩, flush2_5 _, ?_⟩
  rw [mem_blk]
  obtain ⟨-, -, -, -, -, -, -, -, -, -, e50, e51⟩ := idx_facts ⟨(i 0).val / 2000, ht⟩
  intro a
  match a with
  | ⟨0, _⟩ =>
    show win2_5.index ⟨(i 0).val / 2000, ht⟩ 0 * 2000 ≤ (i 0).val ∧ (i 0).val < win2_5.index ⟨(i 0).val / 2000, ht⟩ 0 * 2000 + 2000
    rw [e50]
    show (i 0).val / 2000 * 2000 ≤ (i 0).val ∧ (i 0).val < (i 0).val / 2000 * 2000 + 2000
    omega
  | ⟨1, _⟩ =>
    show win2_5.index ⟨(i 0).val / 2000, ht⟩ 1 * 64 ≤ (i 1).val ∧ (i 1).val < win2_5.index ⟨(i 0).val / 2000, ht⟩ 1 * 64 + 64
    rw [e51]
    omega

/-- THE RESULT ARRAY after the region: the layer of the arrays the region found. -/
theorem final (c : Dev nD) : (dat2 V c).arrAt 5 cfg2.N = out V c :=
  (dat2 V c).arrAt_eq_of_cover 5 (out V c) (fun t _ => flushed V c t) cover

/-- The same, with the arrays the region finds given by name: the sums, the features, the scale of each node, the weights
    and the bias of each output. -/
theorem final_of (c : Dev nD) (agg h : S50000x256.Idx → EReal) (invd : Fin 50000 → EReal) (W : S256x64.Idx → EReal) (b : Fin 64 → EReal)
    (h0 : (V c main_v42 : S50000x256.Idx → EReal) = agg) (h1 : (V c main_v32 : S50000x256.Idx → EReal) = h)
    (h2 : ∀ r : Fin 50000, (V c main_v8 : S50000x1.Idx → EReal) (ix2 r (0 : Fin 1)) = invd r)
    (h3 : (V c main_arg7 : S256x64.Idx → EReal) = W)
    (h4 : ∀ q : Fin 64, (V c main_v43 : S1x64.Idx → EReal) (ix2 (0 : Fin 1) q) = b q) :
    (dat2 V c).arrAt 5 cfg2.N = logSoftmaxLayer (N := 50000) (K := 256) (M := 64) agg h invd W b := by
  subst h0 h1 h3
  obtain rfl : (fun r => (V c main_v8 : S50000x1.Idx → EReal) (ix2 r (0 : Fin 1))) = invd := funext h2
  obtain rfl : (fun q => (V c main_v43 : S1x64.Idx → EReal) (ix2 (0 : Fin 1) q)) = b := funext h4
  exact final V c

end Cert.KernelIdeal.Sage2

end
-- ==== Proof.HostChain.lean ====
/-
  The graph side of the network, and the network.

  Every layer first gathers, for each of the 600000 edges, the feature row of the edge's source node (a negative source
  index wraps round by 50000 before it is used) and adds it into the row of the edge's destination node, starting from a
  zero array: the neighbour sums. The degree of a node is the same scatter of ones, and the scale of a node is one over
  its degree plus one. These chains are carried as functions of the arrays they read and are never opened: both programs
  apply the same chain to the same arrays. The network is three layers over them: two clamped at zero and the log-softmax.
-/
import proofs.«123428_j68805376082494_1_alg».proof.KernelIdeal
import proofs.«123428_j68805376082494_1_alg».proof.Proof.Gen.KernelIdeal
import proofs.«123428_j68805376082494_1_alg».proof.Proof.SageSpec

noncomputable section

namespace Cert.KernelIdeal.Chain

open Cert.KernelIdeal Cert.KernelIdeal.Facts₀ Cert.KernelIdeal.Facts Idealize.ShloMosaic Idealize.ShloMosaic.ValueIdx Cert.Sage

/-- The edges' source rows as a gather's start indices: a negative index has 50000 added. -/
def srcIdx (a1 : (⟨S600000, .i32⟩ : BufTy).Contents (Elt Ideal)) : (⟨S600000x1, .i32⟩ : BufTy).Contents (Elt Ideal) :=
  broadcastInDim S600000x1 ![0] bcast_S600000_S600000x1_0
    (select (cmpi .slt a1 (broadcastInDim S600000 ![] bcast_S_S600000 (constantI S_ 32 0#32)))
      (addi a1 (broadcastInDim S600000 ![] bcast_S_S600000 (constantI S_ 32 50000#32))) a1)

/-- The neighbour sums of the input features (width 128). -/
def aggIn (x : (⟨S50000x128, .f32⟩ : BufTy).Contents (Elt Ideal)) (a1 a2 : (⟨S600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 a2)
    (Host.gather gather_S50000x128_S600000x1_S600000x128_1_0_n_n_0_1_1128 x (srcIdx a1))

/-- The neighbour sums of hidden features (width 256). -/
def aggHid (x : (⟨S50000x256, .f32⟩ : BufTy).Contents (Elt Ideal)) (a1 a2 : (⟨S600000, .i32⟩ : BufTy).Contents (Elt Ideal)) :
    (⟨S50000x256, .f32⟩ : BufTy).Contents (Elt Ideal) :=
  Host.scatterAdd scatter_S50000x256_S600000x1_S600000x256_1_0_0_1
    (broadcastInDim S50000x256 ![] bcast_S_S50000x256 (constant (F := Ideal) S_ .f32 0x00000000#32))
    (broadcastInDim S600000x1 ![0] bcast_S600000_S600000x1_0 a2)
    (Host.gather gather_S50000x256_S600000x1_S600000x256_1_0_n_n_0_1_1256 x (srcIdx a1))

/-- One over (degree + 1), per node. -/
def invDeg (a2 : (⟨S600000, .i32⟩ : BufTy).Contents (Elt Ideal)) : (⟨S50000, .f32⟩ : BufTy).Contents (Elt Ideal) :=
  Host.divf (broadcastInDim S50000 ![] bcast_S_S50000 (constant (F := Ideal) S_ .f32 0x3F800000#32))
    (addf (Host.scatterAdd scatter_S50000_S600000x1_S600000_n_0_0_1
        (broadcastInDim S50000 ![] bcast_S_S50000 (constant (F := Ideal) S_ .f32 0x00000000#32))
        (broadcastInDim S600000x1 ![0] bcast_S600000_S600000x1_0 a2)
        (broadcastInDim S600000 ![] bcast_S_S600000 (constant (F := Ideal) S_ .f32 0x3F800000#32)))
      (broadcastInDim S50000 ![] bcast_S_S50000 (constant (F := Ideal) S_ .f32 0x3F800000#32)))

variable (x0 : (⟨S50000x128, .f32⟩ : BufTy).Contents (Elt Ideal)) (a1 a2 : (⟨S600000, .i32⟩ : BufTy).Contents (Elt Ideal))
  (w0 : (⟨S128x256, .f32⟩ : BufTy).Contents (Elt Ideal)) (b0 : (⟨S256, .f32⟩ : BufTy).Contents (Elt Ideal))
  (w1 : (⟨S256x256, .f32⟩ : BufTy).Contents (Elt Ideal)) (b1 : (⟨S256, .f32⟩ : BufTy).Contents (Elt Ideal))
  (w2 : (⟨S256x64, .f32⟩ : BufTy).Contents (Elt Ideal)) (b2 : (⟨S64, .f32⟩ : BufTy).Contents (Elt Ideal))

/-- The first hidden layer's output. -/
def hidden1 : S50000x256.Idx → EReal :=
  reluLayer (N := 50000) (K := 128) (M := 256) (aggIn x0 a1 a2) x0 (fun r => invDeg a2 (ix1 r)) w0 (fun q => b0 (ix1 q))

/-- The second hidden layer's output. -/
def hidden2 : S50000x256.Idx → EReal :=
  reluLayer (N := 50000) (K := 256) (M := 256) (aggHid (hidden1 x0 a1 a2 w0 b0) a1 a2) (hidden1 x0 a1 a2 w0 b0)
    (fun r => invDeg a2 (ix1 r)) w1 (fun q => b1 (ix1 q))

/-- The network's output: the log-softmax layer over the second hidden layer. -/
def net : S50000x64.Idx → EReal :=
  logSoftmaxLayer (N := 50000) (K := 256) (M := 64) (aggHid (hidden2 x0 a1 a2 w0 b0 w1 b1) a1 a2) (hidden2 x0 a1 a2 w0 b0 w1 b1)
    (fun r => invDeg a2 (ix1 r)) w2 (fun q => b2 (ix1 q))

end Cert.KernelIdeal.Chain

end
-- ==== Proof.KernelValue.lean ====
/-
  The kernel program's result, as the network of its arguments.

  Through the fold of buffer contents: a stretch of host operations leaves in each buffer its operation's value of the
  buffers before it (the neighbour sums of the features so far, the nodes' scales, a bias as one row), and leaves every
  other buffer alone; a region leaves in its result array the layer of the arrays it found (the three region modules)
  and every other buffer alone. Reading the last boundary's result buffer back through the six steps gives the network
  applied to the launch contents of the nine arguments.
-/
import proofs.«123428_j68805376082494_1_alg».proof.Proof.Gen.KernelIdeal.Frame
import proofs.«123428_j68805376082494_1_alg».proof.Proof.Region0
import proofs.«123428_j68805376082494_1_alg».proof.Proof.Region1
import proofs.«123428_j68805376082494_1_alg».proof.Proof.Region2
import proofs.«123428_j68805376082494_1_alg».proof.Proof.HostChain
import proofs.«123428_j68805376082494_1_alg».proof.Proof.LibColumnLayout
import Idealize.ShloMosaic.Lib.ValueLayout
import Idealize.ShloMosaic.Lib.StableHlo.Run

noncomputable section

namespace Cert.KernelIdeal.SageValue

open Cert.KernelIdeal Cert.KernelIdeal.Gen Cert.KernelIdeal.Chain Cert.Sage
open Idealize.ShloMosaic Idealize.ShloMosaic.TcCoe Idealize.SL.Sem Idealize.ShloMosaic.ValueIdx Idealize.ShloMosaic.StableHlo
open Idealize.ShloMosaic.Pipeline (Dat)

/-! ## The three stretches of host operations, from any contents `W` -/

section Stretches

variable (W : Valuation τ sig (Elt Ideal))

/-- Before the first region: the neighbour sums of the input features, -/
theorem ops0_v18 : after (hostOps0 (F := Ideal)) W (Proc.devRef .tc main_v18)
    = aggIn (W (Proc.devRef .tc main_arg0)) (W (Proc.devRef .tc main_arg1)) (W (Proc.devRef .tc main_arg2)) := by
  after_results_simp <;> rfl
/-- the nodes' scales as a column, -/
theorem ops0_v8 : after (hostOps0 (F := Ideal)) W (Proc.devRef .tc main_v8)
    = shapeCast S50000x1 (invDeg (W (Proc.devRef .tc main_arg2))) shapeCasts_S50000_S50000x1 := by
  after_results_simp <;> rfl
/-- and the first bias as a row. -/
theorem ops0_v19 : after (hostOps0 (F := Ideal)) W (Proc.devRef .tc main_v19)
    = shapeCast S1x256 (W (Proc.devRef .tc main_arg4)) shapeCasts_S256_S1x256 := by
  after_results_simp <;> rfl
theorem ops0_arg0 : after (hostOps0 (F := Ideal)) W (Proc.devRef .tc main_arg0) = W (Proc.devRef .tc main_arg0) := by after_results_simp <;> rfl
theorem ops0_arg1 : after (hostOps0 (F := Ideal)) W (Proc.devRef .tc main_arg1) = W (Proc.devRef .tc main_arg1) := by after_results_simp <;> rfl
theorem ops0_arg2 : after (hostOps0 (F := Ideal)) W (Proc.devRef .tc main_arg2) = W (Proc.devRef .tc main_arg2) := by after_results_simp <;> rfl
theorem ops0_arg3 : after (hostOps0 (F := Ideal)) W (Proc.devRef .tc main_arg3) = W (Proc.devRef .tc main_arg3) := by after_results_simp <;> rfl
theorem ops0_arg5 : after (hostOps0 (F := Ideal)) W (Proc.devRef .tc main_arg5) = W (Proc.devRef .tc main_arg5) := by after_results_simp <;> rfl
theorem ops0_arg6 : after (hostOps0 (F := Ideal)) W (Proc.devRef .tc main_arg6) = W (Proc.devRef .tc main_arg6) := by after_results_simp <;> rfl
theorem ops0_arg7 : after (hostOps0 (F := Ideal)) W (Proc.devRef .tc main_arg7) = W (Proc.devRef .tc main_arg7) := by after_results_simp <;> rfl
theorem ops0_arg8 : after (hostOps0 (F := Ideal)) W (Proc.devRef .tc main_arg8) = W (Proc.devRef .tc main_arg8) := by after_results_simp <;> rfl

/-- Between the first two regions: the neighbour sums of the first hidden layer, and the second bias as a row. -/
theorem ops1_v30 : after (hostOps1 (F := Ideal)) W (Proc.devRef .tc main_v30)
    = aggHid (W (Proc.devRef .tc main_v20)) (W (Proc.devRef .tc main_arg1)) (W (Proc.devRef .tc main_arg2)) := by
  after_results_simp <;> rfl
theorem ops1_v31 : after (hostOps1 (F := Ideal)) W (Proc.devRef .tc main_v31)
    = shapeCast S1x256 (W (Proc.devRef .tc main_arg6)) shapeCasts_S256_S1x256 := by
  after_results_simp <;> rfl
theorem ops1_v20 : after (hostOps1 (F := Ideal)) W (Proc.devRef .tc main_v20) = W (Proc.devRef .tc main_v20) := by after_results_simp <;> rfl
theorem ops1_v8 : after (hostOps1 (F := Ideal)) W (Proc.devRef .tc main_v8) = W (Proc.devRef .tc main_v8) := by after_results_simp <;> rfl
theorem ops1_arg1 : after (hostOps1 (F := Ideal)) W (Proc.devRef .tc main_arg1) = W (Proc.devRef .tc main_arg1) := by after_results_simp <;> rfl
theorem ops1_arg2 : after (hostOps1 (F := Ideal)) W (Proc.devRef .tc main_arg2) = W (Proc.devRef .tc main_arg2) := by after_results_simp <;> rfl
theorem ops1_arg5 : after (hostOps1 (F := Ideal)) W (Proc.devRef .tc main_arg5) = W (Proc.devRef .tc main_arg5) := by after_results_simp <;> rfl
theorem ops1_arg7 : after (hostOps1 (F := Ideal)) W (Proc.devRef .tc main_arg7) = W (Proc.devRef .tc main_arg7) := by after_results_simp <;> rfl
theorem ops1_arg8 : after (hostOps1 (F := Ideal)) W (Proc.devRef .tc main_arg8) = W (Proc.devRef .tc main_arg8) := by after_results_simp <;> rfl

/-- Between the last two regions: the neighbour sums of the second hidden layer, and the last bias as a row. -/
theorem ops2_v42 : after (hostOps2 (F := Ideal)) W (Proc.devRef .tc main_v42)
    = aggHid (W (Proc.devRef .tc main_v32)) (W (Proc.devRef .tc main_arg1)) (W (Proc.devRef .tc main_arg2)) := by
  after_results_simp <;> rfl
theorem ops2_v43 : after (hostOps2 (F := Ideal)) W (Proc.devRef .tc main_v43)
    = shapeCast S1x64 (W (Proc.devRef .tc main_arg8)) shapeCasts_S64_S1x64 := by
  after_results_simp <;> rfl
theorem ops2_v32 : after (hostOps2 (F := Ideal)) W (Proc.devRef .tc main_v32) = W (Proc.devRef .tc main_v32) := by after_results_simp <;> rfl
theorem ops2_v8 : after (hostOps2 (F := Ideal)) W (Proc.devRef .tc main_v8) = W (Proc.devRef .tc main_v8) := by after_results_simp <;> rfl
theorem ops2_arg7 : after (hostOps2 (F := Ideal)) W (Proc.devRef .tc main_arg7) = W (Proc.devRef .tc main_arg7) := by after_results_simp <;> rfl

end Stretches

/-! ## The boundaries' contents, one buffer at a time -/

variable (m : (ℓ : Loc nD τ sig) → Buf (Elt Ideal) ℓ) (ρ : Dev nD → PrngReg) (c : Dev nD)

/-! ### At the first region's entry -/

theorem W1_v18 : W1 m ρ c (Proc.devRef .tc main_v18) = aggIn (m ((c : Thread nD τ).loc main_arg0)) (m ((c : Thread nD τ).loc main_arg1)) (m ((c : Thread nD τ).loc main_arg2)) := ops0_v18 (W0 m ρ c)
theorem W1_v8 : W1 m ρ c (Proc.devRef .tc main_v8) = shapeCast S50000x1 (invDeg (m ((c : Thread nD τ).loc main_arg2))) shapeCasts_S50000_S50000x1 := ops0_v8 (W0 m ρ c)
theorem W1_v19 : W1 m ρ c (Proc.devRef .tc main_v19) = shapeCast S1x256 (m ((c : Thread nD τ).loc main_arg4)) shapeCasts_S256_S1x256 := ops0_v19 (W0 m ρ c)
theorem W1_arg0 : W1 m ρ c (Proc.devRef .tc main_arg0) = (m ((c : Thread nD τ).loc main_arg0)) := ops0_arg0 (W0 m ρ c)
theorem W1_arg1 : W1 m ρ c (Proc.devRef .tc main_arg1) = (m ((c : Thread nD τ).loc main_arg1)) := ops0_arg1 (W0 m ρ c)
theorem W1_arg2 : W1 m ρ c (Proc.devRef .tc main_arg2) = (m ((c : Thread nD τ).loc main_arg2)) := ops0_arg2 (W0 m ρ c)
theorem W1_arg3 : W1 m ρ c (Proc.devRef .tc main_arg3) = (m ((c : Thread nD τ).loc main_arg3)) := ops0_arg3 (W0 m ρ c)
theorem W1_arg5 : W1 m ρ c (Proc.devRef .tc main_arg5) = (m ((c : Thread nD τ).loc main_arg5)) := ops0_arg5 (W0 m ρ c)
theorem W1_arg6 : W1 m ρ c (Proc.devRef .tc main_arg6) = (m ((c : Thread nD τ).loc main_arg6)) := ops0_arg6 (W0 m ρ c)
theorem W1_arg7 : W1 m ρ c (Proc.devRef .tc main_arg7) = (m ((c : Thread nD τ).loc main_arg7)) := ops0_arg7 (W0 m ρ c)
theorem W1_arg8 : W1 m ρ c (Proc.devRef .tc main_arg8) = (m ((c : Thread nD τ).loc main_arg8)) := ops0_arg8 (W0 m ρ c)

/-- The scale column, read at row `r`, is the node's scale. -/
theorem col_apply (r : Fin 50000) :
    (shapeCast S50000x1 (invDeg (m ((c : Thread nD τ).loc main_arg2))) shapeCasts_S50000_S50000x1 : S50000x1.Idx → EReal) (ix2 r (0 : Fin 1)) = invDeg (m ((c : Thread nD τ).loc main_arg2)) (ix1 r) :=
  Cert.ColumnLayout.shapeCast_a_a1_apply _ _ r 0

/-! ### After the first region -/

theorem W2_v20 : W2 m ρ c (Proc.devRef .tc main_v20) = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  unfold hidden1
  exact (W2_arr m ρ c 5).trans (Sage0.final_of (V1 m ρ) c _ _ _ _ _ (W1_v18 m ρ c) (W1_arg0 m ρ c)
    (fun r => (congrFun (W1_v8 m ρ c) (ix2 r (0 : Fin 1))).trans (col_apply m c r)) (W1_arg3 m ρ c)
    (fun q => (congrFun (W1_v19 m ρ c) (ix2 (0 : Fin 1) q)).trans (shapeCast_a_1a_apply _ _ 0 q)))
theorem W2_v8 : W2 m ρ c (Proc.devRef .tc main_v8) = shapeCast S50000x1 (invDeg (m ((c : Thread nD τ).loc main_arg2))) shapeCasts_S50000_S50000x1 :=
  ((W2_arr m ρ c 2).trans (((dat0 (V1 m ρ) c).arrAt_in 2 rfl _).trans (A_eq0 (V1 m ρ) c 2))).trans (W1_v8 m ρ c)
theorem W2_arg1 : W2 m ρ c (Proc.devRef .tc main_arg1) = (m ((c : Thread nD τ).loc main_arg1)) := (W2_of_ne m ρ c main_arg1 (by decide)).trans (W1_arg1 m ρ c)
theorem W2_arg2 : W2 m ρ c (Proc.devRef .tc main_arg2) = (m ((c : Thread nD τ).loc main_arg2)) := (W2_of_ne m ρ c main_arg2 (by decide)).trans (W1_arg2 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)

/-! ### At the second region's entry -/

theorem W3_v30 : W3 m ρ c (Proc.devRef .tc main_v30) = aggHid (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) := by
  refine (ops1_v30 (W2 m ρ c)).trans ?_
  rw [W2_v20 m ρ c, W2_arg1 m ρ c, W2_arg2 m ρ c]
theorem W3_v20 : W3 m ρ c (Proc.devRef .tc main_v20) = hidden1 (m ((c : Thread nD τ).loc main_arg0)) (m ((c : Thread nD τ).loc main_arg1)) (m ((c : Thread nD τ).loc main_arg2)) (m ((c : Thread nD τ).loc main_arg3)) (m ((c : Thread nD τ).loc main_arg4)) := (ops1_v20 (W2 m ρ c)).trans (W2_v20 m ρ c)
theorem W3_v8 : W3 m ρ c (Proc.devRef .tc main_v8) = shapeCast S50000x1 (invDeg (m ((c : Thread nD τ).loc main_arg2))) shapeCasts_S50000_S50000x1 := (ops1_v8 (W2 m ρ c)).trans (W2_v8 m ρ c)
theorem W3_v31 : W3 m ρ c (Proc.devRef .tc main_v31) = shapeCast S1x256 (m ((c : Thread nD τ).loc main_arg6)) shapeCasts_S256_S1x256 := by
  refine (ops1_v31 (W2 m ρ c)).trans ?_
  rw [W2_arg6 m ρ c]
theorem W3_arg1 : W3 m ρ c (Proc.devRef .tc main_arg1) = (m ((c : Thread nD τ).loc main_arg1)) := (ops1_arg1 (W2 m ρ c)).trans (W2_arg1 m ρ c)
theorem W3_arg2 : W3 m ρ c (Proc.devRef .tc main_arg2) = (m ((c : Thread nD τ).loc main_arg2)) := (ops1_arg2 (W2 m ρ c)).trans (W2_arg2 m ρ c)
theorem W3_arg5 : W3 m ρ c (Proc.devRef .tc main_arg5) = (m ((c : Thread nD τ).loc main_arg5)) := (ops1_arg5 (W2 m ρ c)).trans (W2_arg5 m ρ c)
theorem W3_arg7 : W3 m ρ c (Proc.devRef .tc main_arg7) = (m ((c : Thread nD τ).loc main_arg7)) := (ops1_arg7 (W2 m ρ c)).trans (W2_arg7 m ρ c)
theorem W3_arg8 : W3 m ρ c (Proc.devRef .tc main_arg8) = (m ((c : Thread nD τ).loc main_arg8)) := (ops1_arg8 (W2 m ρ c)).trans (W2_arg8 m ρ c)

/-! ### After the second region -/

theorem W4_v32 : W4 m ρ c (Proc.devRef .tc main_v32) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold hidden2
  exact (W4_arr m ρ c 5).trans (Sage1.final_of (V3 m ρ) c _ _ _ _ _ (W3_v30 m ρ c) (W3_v20 m ρ c)
    (fun r => (congrFun (W3_v8 m ρ c) (ix2 r (0 : Fin 1))).trans (col_apply m c r)) (W3_arg5 m ρ c)
    (fun q => (congrFun (W3_v31 m ρ c) (ix2 (0 : Fin 1) q)).trans (shapeCast_a_1a_apply _ _ 0 q)))
theorem W4_v8 : W4 m ρ c (Proc.devRef .tc main_v8) = shapeCast S50000x1 (invDeg (m ((c : Thread nD τ).loc main_arg2))) shapeCasts_S50000_S50000x1 :=
  ((W4_arr m ρ c 2).trans (((dat1 (V3 m ρ) c).arrAt_in 2 rfl _).trans (A_eq1 (V3 m ρ) c 2))).trans (W3_v8 m ρ c)
theorem W4_arg1 : W4 m ρ c (Proc.devRef .tc main_arg1) = (m ((c : Thread nD τ).loc main_arg1)) := (W4_of_ne m ρ c main_arg1 (by decide)).trans (W3_arg1 m ρ c)
theorem W4_arg2 : W4 m ρ c (Proc.devRef .tc main_arg2) = (m ((c : Thread nD τ).loc main_arg2)) := (W4_of_ne m ρ c main_arg2 (by decide)).trans (W3_arg2 m ρ c)
theorem W4_arg7 : W4 m ρ c (Proc.devRef .tc main_arg7) = (m ((c : Thread nD τ).loc main_arg7)) := (W4_of_ne m ρ c main_arg7 (by decide)).trans (W3_arg7 m ρ c)
theorem W4_arg8 : W4 m ρ c (Proc.devRef .tc main_arg8) = (m ((c : Thread nD τ).loc main_arg8)) := (W4_of_ne m ρ c main_arg8 (by decide)).trans (W3_arg8 m ρ c)

/-! ### At the last region's entry -/

theorem W5_v42 : W5 m ρ c (Proc.devRef .tc main_v42) = aggHid (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) := by
  refine (ops2_v42 (W4 m ρ c)).trans ?_
  rw [W4_v32 m ρ c, W4_arg1 m ρ c, W4_arg2 m ρ c]
theorem W5_v32 : W5 m ρ c (Proc.devRef .tc main_v32) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (ops2_v32 (W4 m ρ c)).trans (W4_v32 m ρ c)
theorem W5_v8 : W5 m ρ c (Proc.devRef .tc main_v8) = shapeCast S50000x1 (invDeg (m ((c : Thread nD τ).loc main_arg2))) shapeCasts_S50000_S50000x1 := (ops2_v8 (W4 m ρ c)).trans (W4_v8 m ρ c)
theorem W5_v43 : W5 m ρ c (Proc.devRef .tc main_v43) = shapeCast S1x64 (m ((c : Thread nD τ).loc main_arg8)) shapeCasts_S64_S1x64 := by
  refine (ops2_v43 (W4 m ρ c)).trans ?_
  rw [W4_arg8 m ρ c]
theorem W5_arg7 : W5 m ρ c (Proc.devRef .tc main_arg7) = (m ((c : Thread nD τ).loc main_arg7)) := (ops2_arg7 (W4 m ρ c)).trans (W4_arg7 m ρ c)

/-! ### After the last region: the result -/

/-- THE RESULT BUFFER at the last boundary holds the network of the nine arguments' launch contents. -/
theorem result : W6 m ρ c (Proc.devRef .tc main_v44) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold net
  exact (W6_arr m ρ c 5).trans (Sage2.final_of (V5 m ρ) c _ _ _ _ _ (W5_v42 m ρ c) (W5_v32 m ρ c)
    (fun r => (congrFun (W5_v8 m ρ c) (ix2 r (0 : Fin 1))).trans (col_apply m c r)) (W5_arg7 m ρ c)
    (fun q => (congrFun (W5_v43 m ρ c) (ix2 (0 : Fin 1) q)).trans (shapeCast_a_1a_apply _ _ 0 q)))

end Cert.KernelIdeal.SageValue

end
-- ==== Proof.HostLayer.lean ====
/-
  One layer as the untiled program computes it, read entry by entry.

  The untiled program adds the neighbour sums to the features over all N rows, multiplies by the scale column repeated
  along each row, takes the matrix product with the weights and adds the bias repeated down the rows. At (p, q) that is the
  layer's pre-activation `lin` at node `p`: the product is the plain sum over the contracted axis, the repeated column is
  read at (p, 0) and the repeated bias at q. A hidden layer then takes the maximum with a zero array; the last layer
  takes the log-softmax along each row of the pre-activations.
-/
import proofs.«123428_j68805376082494_1_alg».proof.Proof.SageSpec
import proofs.«123428_j68805376082494_1_alg».proof.Proof.LibDotSums
import proofs.«123428_j68805376082494_1_alg».proof.Proof.LibBroadcastInDim
import Idealize.ShloMosaic.Lib.KernelVsHost
import Idealize.ShloMosaic.Lib.IdealHost
import Idealize.ShloMosaic.Lib.Pipeline.Value
import Idealize.ShloMosaic.PureOps.Ideal.Laws

open scoped BigOperators

noncomputable section

namespace Cert.Sage

open Idealize.ShloMosaic Idealize.ShloMosaic.ValueIdx Cert.LogSoftmax

/-- A vector `[n]` placed as the one row of a `[1, n]` matrix reads, at (u, c), its entry `c`. -/
theorem rowOf_apply {α : Type} {n : ℕ} (x : (⟨1, ![n]⟩ : Shape).Idx → α) (h : (⟨1, ![n]⟩ : Shape).BroadcastsInDim ⟨2, ![1, n]⟩ ![1])
    (u : Fin 1) (c : Fin n) : broadcastInDim ⟨2, ![1, n]⟩ ![1] h x (ix2 u c) = x (ix1 c) := by
  refine broadcastInDim_apply ![1] h x (ix2 u c) (ix1 c) fun ax => ?_
  match ax with
  | ⟨0, _⟩ =>
    show c.val = if n = 1 then 0 else c.val
    split
    · have := c.isLt; omega
    · rfl

variable {N K M : ℕ} (D : DotDims ⟨2, ![N, K]⟩ ⟨2, ![K, M]⟩ ⟨2, ![N, M]⟩)

/-- The untiled pre-activation at (p, q). -/
theorem hostPre_apply
    (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = K)
    (agg h : FVec Ideal ⟨2, ![N, K]⟩ .f32) (col : FVec Ideal ⟨2, ![N, 1]⟩ .f32) (W : FVec Ideal ⟨2, ![K, M]⟩ .f32)
    (b : FVec Ideal ⟨1, ![M]⟩ .f32)
    (hbk : (⟨2, ![N, 1]⟩ : Shape).BroadcastsInDim ⟨2, ![N, K]⟩ ![0, 1])
    (hb1 : (⟨1, ![M]⟩ : Shape).BroadcastsInDim ⟨2, ![1, M]⟩ ![1])
    (hb2 : (⟨2, ![1, M]⟩ : Shape).BroadcastsInDim ⟨2, ![N, M]⟩ ![0, 1]) (p : Fin N) (q : Fin M) :
    (addf (Host.dotGeneral D none (mulf (addf agg h) (broadcastInDim ⟨2, ![N, K]⟩ ![0, 1] hbk col)) W)
        (broadcastInDim ⟨2, ![N, M]⟩ ![0, 1] hb2 (broadcastInDim ⟨2, ![1, M]⟩ ![1] hb1 b)) : FVec Ideal ⟨2, ![N, M]⟩ .f32) (ix2 p q)
      = lin agg h (fun r => col (ix2 r (0 : Fin 1))) W (fun c => b (ix1 c)) p q := by
  show FloatOps.dotGeneral D none _ (mulf (addf agg h) (broadcastInDim ⟨2, ![N, K]⟩ ![0, 1] hbk col)) W (ix2 p q)
      + broadcastInDim ⟨2, ![N, M]⟩ ![0, 1] hb2 (broadcastInDim ⟨2, ![1, M]⟩ ![1] hb1 b) (ix2 p q) = _
  rw [Cert.DotSums.dotGeneral_ix2 D none _ hlb hln hlc hrb hrn hrc hr hs, broadcastInDim_oneRow_apply, rowOf_apply]
  unfold lin
  refine congrArg (· + b (ix1 q)) (Finset.sum_congr rfl fun k _ => ?_)
  show ((agg (ix2 p k) + h (ix2 p k)) * broadcastInDim ⟨2, ![N, K]⟩ ![0, 1] hbk col (ix2 p k)) * W (ix2 k q) = _
  rw [Cert.BroadcastInDim.rows_apply]

/-- A hidden layer of the untiled program at an index. -/
theorem hostRelu_apply
    (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = K)
    (agg h : FVec Ideal ⟨2, ![N, K]⟩ .f32) (col : FVec Ideal ⟨2, ![N, 1]⟩ .f32) (W : FVec Ideal ⟨2, ![K, M]⟩ .f32)
    (b : FVec Ideal ⟨1, ![M]⟩ .f32)
    (hbk : (⟨2, ![N, 1]⟩ : Shape).BroadcastsInDim ⟨2, ![N, K]⟩ ![0, 1])
    (hb1 : (⟨1, ![M]⟩ : Shape).BroadcastsInDim ⟨2, ![1, M]⟩ ![1])
    (hb2 : (⟨2, ![1, M]⟩ : Shape).BroadcastsInDim ⟨2, ![N, M]⟩ ![0, 1])
    (hb0 : (⟨0, ![]⟩ : Shape).BroadcastsInDim ⟨2, ![N, M]⟩ ![]) :
    (maximumf (addf (Host.dotGeneral D none (mulf (addf agg h) (broadcastInDim ⟨2, ![N, K]⟩ ![0, 1] hbk col)) W)
        (broadcastInDim ⟨2, ![N, M]⟩ ![0, 1] hb2 (broadcastInDim ⟨2, ![1, M]⟩ ![1] hb1 b)))
      (broadcastInDim ⟨2, ![N, M]⟩ ![] hb0 (constant ⟨0, ![]⟩ .f32 0x00000000#32)) : FVec Ideal ⟨2, ![N, M]⟩ .f32)
      = reluLayer agg h (fun r => col (ix2 r (0 : Fin 1))) W (fun c => b (ix1 c)) := by
  funext i
  obtain ⟨p, q, rfl⟩ : ∃ (p : Fin N) (q : Fin M), i = ix2 p q := ⟨i 0, i 1, eq_ix2 i⟩
  show max ((addf (Host.dotGeneral D none (mulf (addf agg h) (broadcastInDim ⟨2, ![N, K]⟩ ![0, 1] hbk col)) W)
        (broadcastInDim ⟨2, ![N, M]⟩ ![0, 1] hb2 (broadcastInDim ⟨2, ![1, M]⟩ ![1] hb1 b)) : FVec Ideal ⟨2, ![N, M]⟩ .f32) (ix2 p q))
      (broadcastInDim ⟨2, ![N, M]⟩ ![] hb0 (constant ⟨0, ![]⟩ .f32 0x00000000#32) (ix2 p q)) = _
  rw [hostPre_apply D hlb hln hlc hrb hrn hrc hr hs, Cert.BroadcastInDim.scalar_apply]
  show max _ (Ideal.ofBits .f32 0x00000000#32) = _
  rw [Ideal.ofBits_zero_f32]
  rfl

/-! ## The untiled layers as terms of their operands -/

/-- The untiled pre-activation array, as the operations compose it. -/
abbrev hostPreTerm {N K M : ℕ} (D : DotDims ⟨2, ![N, K]⟩ ⟨2, ![K, M]⟩ ⟨2, ![N, M]⟩)
    (agg h : FVec Ideal ⟨2, ![N, K]⟩ .f32) (col : FVec Ideal ⟨2, ![N, 1]⟩ .f32) (W : FVec Ideal ⟨2, ![K, M]⟩ .f32)
    (b : FVec Ideal ⟨1, ![M]⟩ .f32)
    (hbk : (⟨2, ![N, 1]⟩ : Shape).BroadcastsInDim ⟨2, ![N, K]⟩ ![0, 1])
    (hb1 : (⟨1, ![M]⟩ : Shape).BroadcastsInDim ⟨2, ![1, M]⟩ ![1])
    (hb2 : (⟨2, ![1, M]⟩ : Shape).BroadcastsInDim ⟨2, ![N, M]⟩ ![0, 1]) : FVec Ideal ⟨2, ![N, M]⟩ .f32 :=
  addf (Host.dotGeneral D none (mulf (addf agg h) (broadcastInDim ⟨2, ![N, K]⟩ ![0, 1] hbk col)) W)
    (broadcastInDim ⟨2, ![N, M]⟩ ![0, 1] hb2 (broadcastInDim ⟨2, ![1, M]⟩ ![1] hb1 b))

/-- A hidden layer's array, as the operations compose it. -/
abbrev hostReluTerm {N K M : ℕ} (D : DotDims ⟨2, ![N, K]⟩ ⟨2, ![K, M]⟩ ⟨2, ![N, M]⟩)
    (agg h : FVec Ideal ⟨2, ![N, K]⟩ .f32) (col : FVec Ideal ⟨2, ![N, 1]⟩ .f32) (W : FVec Ideal ⟨2, ![K, M]⟩ .f32)
    (b : FVec Ideal ⟨1, ![M]⟩ .f32)
    (hbk : (⟨2, ![N, 1]⟩ : Shape).BroadcastsInDim ⟨2, ![N, K]⟩ ![0, 1])
    (hb1 : (⟨1, ![M]⟩ : Shape).BroadcastsInDim ⟨2, ![1, M]⟩ ![1])
    (hb2 : (⟨2, ![1, M]⟩ : Shape).BroadcastsInDim ⟨2, ![N, M]⟩ ![0, 1])
    (hb0 : (⟨0, ![]⟩ : Shape).BroadcastsInDim ⟨2, ![N, M]⟩ ![]) : FVec Ideal ⟨2, ![N, M]⟩ .f32 :=
  maximumf (hostPreTerm D agg h col W b hbk hb1 hb2)
    (broadcastInDim ⟨2, ![N, M]⟩ ![] hb0 (constant ⟨0, ![]⟩ .f32 0x00000000#32))

end Cert.Sage

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.RefValue.lean ====
/-
  The untiled program's result, as the network of its arguments.

  Its 94 host operations are read in three pieces, each from ANY contents of the buffers: the first piece leaves the first
  hidden layer of the arguments, the second the second hidden layer of the first (read from the buffer the first piece
  left, not recomputed), the third the log-softmax layer of the second. Each piece's operations compose to one layer of the
  arrays it reads (the untiled layer lemmas), over the same neighbour-sum and scale chains as the tiled program's; a piece
  leaves the arguments, the scale column and the earlier layers' buffers alone. Put together: the result buffer holds the
  network of the launch contents of the nine arguments.
-/
import proofs.«123428_j68805376082494_1_alg».proof.Proof.RefRunOps
import proofs.«123428_j68805376082494_1_alg».proof.Proof.HostLayer
import proofs.«123428_j68805376082494_1_alg».proof.Proof.HostChain
import proofs.«123428_j68805376082494_1_alg».proof.Proof.LibBroadcastInDim
import proofs.«123428_j68805376082494_1_alg».proof.Proof.LibTypedRef
import Idealize.ShloMosaic.Lib.Pipeline.Frame
import Idealize.ShloMosaic.Lib.StableHlo.Run

noncomputable section

namespace Cert.ReferenceIdeal.SageValue

open Cert.ReferenceIdeal Cert.ReferenceIdeal.Gen Cert.ReferenceIdeal.RunOps Cert.Sage Cert.LogSoftmax
open Idealize.ShloMosaic Idealize.ShloMosaic.TcCoe Idealize.SL.Sem Idealize.ShloMosaic.ValueIdx Idealize.ShloMosaic.StableHlo

/-! ## The graph chains in this program's own spelling

The same chains as the tiled program's (module HostChain), over this program's own records of the gather's and the
scatters' dimension numbers — which are the same numbers. -/

/-- The edges' source rows as a gather's start indices. -/
def srcIdx (a1 : (⟨S600000, .i32⟩ : BufTy).Contents (Elt Ideal)) : (⟨S600000x1, .i32⟩ : BufTy).Contents (Elt Ideal) :=
  broadcastInDim S600000x1 ![0] bcast_S600000_S600000x1_0
    (select (cmpi .slt a1 (broadcastInDim S600000 ![] bcast_S_S600000 (constantI S_ 32 0#32)))
      (addi a1 (broadcastInDim S600000 ![] bcast_S_S600000 (constantI S_ 32 50000#32))) a1)

/-- The neighbour sums of the input features. -/
def aggIn (x : (⟨S50000x128, .f32⟩ : BufTy).Contents (Elt Ideal)) (a1 a2 : (⟨S600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 a2)
    (Host.gather gather_S50000x128_S600000x1_S600000x128_1_0_n_n_0_1_1128 x (srcIdx a1))

/-- The neighbour sums of hidden features. -/
def aggHid (x : (⟨S50000x256, .f32⟩ : BufTy).Contents (Elt Ideal)) (a1 a2 : (⟨S600000, .i32⟩ : BufTy).Contents (Elt Ideal)) :
    (⟨S50000x256, .f32⟩ : BufTy).Contents (Elt Ideal) :=
  Host.scatterAdd scatter_S50000x256_S600000x1_S600000x256_1_0_0_1
    (broadcastInDim S50000x256 ![] bcast_S_S50000x256 (constant (F := Ideal) S_ .f32 0x00000000#32))
    (broadcastInDim S600000x1 ![0] bcast_S600000_S600000x1_0 a2)
    (Host.gather gather_S50000x256_S600000x1_S600000x256_1_0_n_n_0_1_1256 x (srcIdx a1))

/-- One over (degree + 1), per node. -/
def invDeg (a2 : (⟨S600000, .i32⟩ : BufTy).Contents (Elt Ideal)) : (⟨S50000, .f32⟩ : BufTy).Contents (Elt Ideal) :=
  Host.divf (broadcastInDim S50000 ![] bcast_S_S50000 (constant (F := Ideal) S_ .f32 0x3F800000#32))
    (addf (Host.scatterAdd scatter_S50000_S600000x1_S600000_n_0_0_1
        (broadcastInDim S50000 ![] bcast_S_S50000 (constant (F := Ideal) S_ .f32 0x00000000#32))
        (broadcastInDim S600000x1 ![0] bcast_S600000_S600000x1_0 a2)
        (broadcastInDim S600000 ![] bcast_S_S600000 (constant (F := Ideal) S_ .f32 0x3F800000#32)))
      (broadcastInDim S50000 ![] bcast_S_S50000 (constant (F := Ideal) S_ .f32 0x3F800000#32)))

theorem srcIdx_eq : srcIdx = Cert.KernelIdeal.Chain.srcIdx := rfl
theorem aggIn_eq : aggIn = Cert.KernelIdeal.Chain.aggIn := rfl
theorem aggHid_eq : aggHid = Cert.KernelIdeal.Chain.aggHid := rfl
theorem invDeg_eq : invDeg = Cert.KernelIdeal.Chain.invDeg := rfl

variable (W : Valuation τ sig (Elt Ideal))

/-! ## The first piece: through the first hidden layer -/

/-- The first piece leaves, in the first hidden layer's buffer, the untiled layer's term of the arguments. -/
theorem opsA_v26 : after (opsA (F := Ideal)) W (Proc.devRef .tc main_v26)
    = hostReluTerm dot_S50000x128_S128x256_S50000x256_1_0_0_1_n_n
        (aggIn (W (Proc.devRef .tc main_arg0)) (W (Proc.devRef .tc main_arg1)) (W (Proc.devRef .tc main_arg2))) (W (Proc.devRef .tc main_arg0))
        (broadcastInDim S50000x1 ![0] bcast_S50000_S50000x1_0 (invDeg (W (Proc.devRef .tc main_arg2)))) (W (Proc.devRef .tc main_arg3)) (W (Proc.devRef .tc main_arg4))
        bcast_S50000x1_S50000x128_0_1 bcast_S256_S1x256_1 bcast_S1x256_S50000x256_0_1 bcast_S_S50000x256 := by
  after_results_simp
  simp only [Cert.TypedRef.ofBuf_toBuf]
  rfl
/-- and the scale column. -/
theorem opsA_v8 : after (opsA (F := Ideal)) W (Proc.devRef .tc main_v8)
    = broadcastInDim S50000x1 ![0] bcast_S50000_S50000x1_0 (invDeg (W (Proc.devRef .tc main_arg2))) := by
  after_results_simp <;> rfl
theorem opsA_arg1 : after (opsA (F := Ideal)) W (Proc.devRef .tc main_arg1) = W (Proc.devRef .tc main_arg1) := by after_results_simp <;> rfl
theorem opsA_arg2 : after (opsA (F := Ideal)) W (Proc.devRef .tc main_arg2) = W (Proc.devRef .tc main_arg2) := by after_results_simp <;> rfl
theorem opsA_arg5 : after (opsA (F := Ideal)) W (Proc.devRef .tc main_arg5) = W (Proc.devRef .tc main_arg5) := by after_results_simp <;> rfl
theorem opsA_arg6 : after (opsA (F := Ideal)) W (Proc.devRef .tc main_arg6) = W (Proc.devRef .tc main_arg6) := by after_results_simp <;> rfl
theorem opsA_arg7 : after (opsA (F := Ideal)) W (Proc.devRef .tc main_arg7) = W (Proc.devRef .tc main_arg7) := by after_results_simp <;> rfl
theorem opsA_arg8 : after (opsA (F := Ideal)) W (Proc.devRef .tc main_arg8) = W (Proc.devRef .tc main_arg8) := by after_results_simp <;> rfl

/-- The first piece's layer buffer holds the first hidden layer. -/
theorem opsA_hidden : after (opsA (F := Ideal)) W (Proc.devRef .tc main_v26)
    = Cert.KernelIdeal.Chain.hidden1 (W (Proc.devRef .tc main_arg0)) (W (Proc.devRef .tc main_arg1)) (W (Proc.devRef .tc main_arg2)) (W (Proc.devRef .tc main_arg3)) (W (Proc.devRef .tc main_arg4)) := by
  refine (opsA_v26 W).trans ?_
  rw [aggIn_eq, invDeg_eq]
  refine (hostRelu_apply dot_S50000x128_S128x256_S50000x256_1_0_0_1_n_n rfl rfl rfl rfl rfl rfl rfl rfl _ _ _ _ _ _ _ _ _).trans ?_
  unfold Cert.KernelIdeal.Chain.hidden1
  exact congrArg (fun f => reluLayer (N := 50000) (K := 128) (M := 256) _ _ f _ _)
    (funext fun r => Cert.BroadcastInDim.column_apply _ _ r 0)

/-! ## The second piece: through the second hidden layer -/

theorem opsB_v44 : after (opsB (F := Ideal)) W (Proc.devRef .tc main_v44)
    = hostReluTerm dot_S50000x256_S256x256_S50000x256_1_0_0_1_n_n
        (aggHid (W (Proc.devRef .tc main_v26)) (W (Proc.devRef .tc main_arg1)) (W (Proc.devRef .tc main_arg2))) (W (Proc.devRef .tc main_v26)) (W (Proc.devRef .tc main_v8)) (W (Proc.devRef .tc main_arg5)) (W (Proc.devRef .tc main_arg6))
        bcast_S50000x1_S50000x256_0_1 bcast_S256_S1x256_1 bcast_S1x256_S50000x256_0_1 bcast_S_S50000x256 := by
  after_results_simp
  simp only [Cert.TypedRef.ofBuf_toBuf]
  rfl
theorem opsB_v8 : after (opsB (F := Ideal)) W (Proc.devRef .tc main_v8) = W (Proc.devRef .tc main_v8) := by after_results_simp <;> rfl
theorem opsB_arg1 : after (opsB (F := Ideal)) W (Proc.devRef .tc main_arg1) = W (Proc.devRef .tc main_arg1) := by after_results_simp <;> rfl
theorem opsB_arg2 : after (opsB (F := Ideal)) W (Proc.devRef .tc main_arg2) = W (Proc.devRef .tc main_arg2) := by after_results_simp <;> rfl
theorem opsB_arg7 : after (opsB (F := Ideal)) W (Proc.devRef .tc main_arg7) = W (Proc.devRef .tc main_arg7) := by after_results_simp <;> rfl
theorem opsB_arg8 : after (opsB (F := Ideal)) W (Proc.devRef .tc main_arg8) = W (Proc.devRef .tc main_arg8) := by after_results_simp <;> rfl

/-- From contents whose first-layer buffer holds `h1` and whose scale column holds the column of `invd`, the second piece
    leaves the hidden layer over `h1`. -/
theorem opsB_hidden (h1 : S50000x256.Idx → EReal) (a1 a2 : S600000.Idx → BitVec 32) (invd : S50000.Idx → EReal)
    (w1 : S256x256.Idx → EReal) (b1 : S256.Idx → EReal)
    (hv : (W (Proc.devRef .tc main_v26)) = h1) (ha1 : (W (Proc.devRef .tc main_arg1)) = a1) (ha2 : (W (Proc.devRef .tc main_arg2)) = a2)
    (hc : (W (Proc.devRef .tc main_v8)) = broadcastInDim S50000x1 ![0] bcast_S50000_S50000x1_0 invd)
    (hw : (W (Proc.devRef .tc main_arg5)) = w1) (hb : (W (Proc.devRef .tc main_arg6)) = b1) :
    after (opsB (F := Ideal)) W (Proc.devRef .tc main_v44)
      = reluLayer (N := 50000) (K := 256) (M := 256) (Cert.KernelIdeal.Chain.aggHid h1 a1 a2) h1 (fun r => invd (ix1 r)) w1 (fun q => b1 (ix1 q)) := by
  refine (opsB_v44 W).trans ?_
  rw [aggHid_eq, hv, ha1, ha2, hc, hw, hb]
  refine (hostRelu_apply dot_S50000x256_S256x256_S50000x256_1_0_0_1_n_n rfl rfl rfl rfl rfl rfl rfl rfl _ _ _ _ _ _ _ _ _).trans ?_
  exact congrArg (fun f => reluLayer (N := 50000) (K := 256) (M := 256) _ _ f _ _)
    (funext fun r => Cert.BroadcastInDim.column_apply _ _ r 0)

/-! ## The third piece: the log-softmax layer -/

theorem opsC_v62 : after (opsC (F := Ideal)) W (Proc.devRef .tc main_v62)
    = hostLogSoftmaxTerm (hostPreTerm dot_S50000x256_S256x64_S50000x64_1_0_0_1_n_n
          (aggHid (W (Proc.devRef .tc main_v44)) (W (Proc.devRef .tc main_arg1)) (W (Proc.devRef .tc main_arg2))) (W (Proc.devRef .tc main_v44)) (W (Proc.devRef .tc main_v8)) (W (Proc.devRef .tc main_arg7)) (W (Proc.devRef .tc main_arg8))
          bcast_S50000x1_S50000x256_0_1 bcast_S64_S1x64_1 bcast_S1x64_S50000x64_0_1)
        reducesTo_S50000x64_S50000_d1 h_S_ bcast_S_S50000 bcast_S50000_S50000x1_0 bcast_S50000x1_S50000x64_0_1 := by
  after_results_simp
  simp only [Cert.TypedRef.ofBuf_toBuf]
  rfl

/-- From contents whose second-layer buffer holds `h2` and whose scale column holds the column of `invd`, the third piece
    leaves the log-softmax layer over `h2`. -/
theorem opsC_out (h2 : S50000x256.Idx → EReal) (a1 a2 : S600000.Idx → BitVec 32) (invd : S50000.Idx → EReal)
    (w2 : S256x64.Idx → EReal) (b2 : S64.Idx → EReal)
    (hv : (W (Proc.devRef .tc main_v44)) = h2) (ha1 : (W (Proc.devRef .tc main_arg1)) = a1) (ha2 : (W (Proc.devRef .tc main_arg2)) = a2)
    (hc : (W (Proc.devRef .tc main_v8)) = broadcastInDim S50000x1 ![0] bcast_S50000_S50000x1_0 invd)
    (hw : (W (Proc.devRef .tc main_arg7)) = w2) (hb : (W (Proc.devRef .tc main_arg8)) = b2) :
    after (opsC (F := Ideal)) W (Proc.devRef .tc main_v62)
      = logSoftmaxLayer (N := 50000) (K := 256) (M := 64) (Cert.KernelIdeal.Chain.aggHid h2 a1 a2) h2 (fun r => invd (ix1 r)) w2 (fun q => b2 (ix1 q)) := by
  refine (opsC_v62 W).trans ?_
  rw [aggHid_eq, hv, ha1, ha2, hc, hw, hb]
  funext i
  obtain ⟨p, q, rfl⟩ : ∃ (p : Fin 50000) (q : Fin 64), i = ix2 p q := ⟨i 0, i 1, eq_ix2 i⟩
  refine (hostLogSoftmax_apply (A := 50000) (B := 64) _ reducesTo_S50000x64_S50000_d1 h_S_ bcast_S_S50000 bcast_S50000_S50000x1_0
    bcast_S50000x1_S50000x64_0_1 p q).trans ?_
  show logSoftmaxRow _ q = logSoftmaxRow _ q
  refine congrArg (fun y => logSoftmaxRow y q) (funext fun c => ?_)
  refine (hostPre_apply dot_S50000x256_S256x64_S50000x64_1_0_0_1_n_n rfl rfl rfl rfl rfl rfl rfl rfl _ _ _ _ _ _ _ _ p c).trans ?_
  exact congrArg (fun f => lin (N := 50000) (K := 256) (M := 64) _ _ f _ _ p c)
    (funext fun r => Cert.BroadcastInDim.column_apply _ _ r 0)

/-! ## The whole list -/

/-- THE RESULT BUFFER after all 94 operations, from contents `W`: the network of `W`'s nine argument buffers. -/
theorem result : after (ops (F := Ideal)) W (Proc.devRef .tc main_v62)
    = Cert.KernelIdeal.Chain.net (W (Proc.devRef .tc main_arg0)) (W (Proc.devRef .tc main_arg1)) (W (Proc.devRef .tc main_arg2)) (W (Proc.devRef .tc main_arg3)) (W (Proc.devRef .tc main_arg4)) (W (Proc.devRef .tc main_arg5))
        (W (Proc.devRef .tc main_arg6)) (W (Proc.devRef .tc main_arg7)) (W (Proc.devRef .tc main_arg8)) := by
  rw [ops_cut, StableHlo.after_append, StableHlo.after_append]
  unfold Cert.KernelIdeal.Chain.net
  refine opsC_out (after (opsB (F := Ideal)) (after (opsA (F := Ideal)) W)) (Cert.KernelIdeal.Chain.hidden2 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)))
    (W (Proc.devRef .tc main_arg1)) (W (Proc.devRef .tc main_arg2)) (Cert.KernelIdeal.Chain.invDeg (W (Proc.devRef .tc main_arg2))) (W (Proc.devRef .tc main_arg7)) (W (Proc.devRef .tc main_arg8)) ?_ ?_ ?_ ?_ ?_ ?_
  · unfold Cert.KernelIdeal.Chain.hidden2
    exact opsB_hidden (after (opsA (F := Ideal)) W) (Cert.KernelIdeal.Chain.hidden1 (W (Proc.devRef .tc main_arg0)) (W (Proc.devRef .tc main_arg1)) (W (Proc.devRef .tc main_arg2)) (W (Proc.devRef .tc main_arg3)) (W (Proc.devRef .tc main_arg4)))
      (W (Proc.devRef .tc main_arg1)) (W (Proc.devRef .tc main_arg2)) (Cert.KernelIdeal.Chain.invDeg (W (Proc.devRef .tc main_arg2))) (W (Proc.devRef .tc main_arg5)) (W (Proc.devRef .tc main_arg6)) (opsA_hidden W) (opsA_arg1 W) (opsA_arg2 W) ((opsA_v8 W).trans (by rw [invDeg_eq])) (opsA_arg5 W) (opsA_arg6 W)
  · exact (opsB_arg1 _).trans (opsA_arg1 W)
  · exact (opsB_arg2 _).trans (opsA_arg2 W)
  · exact (opsB_v8 _).trans ((opsA_v8 W).trans (by rw [invDeg_eq]))
  · exact (opsB_arg7 _).trans (opsA_arg7 W)
  · exact (opsB_arg8 _).trans (opsA_arg8 W)

/-! ## The arguments are left alone -/

theorem ops_arg0 : after (ops (F := Ideal)) W (Proc.devRef .tc main_arg0) = W (Proc.devRef .tc main_arg0) := by after_results_simp <;> rfl
theorem ops_arg1 : after (ops (F := Ideal)) W (Proc.devRef .tc main_arg1) = W (Proc.devRef .tc main_arg1) := by after_results_simp <;> rfl
theorem ops_arg2 : after (ops (F := Ideal)) W (Proc.devRef .tc main_arg2) = W (Proc.devRef .tc main_arg2) := by after_results_simp <;> rfl
theorem ops_arg3 : after (ops (F := Ideal)) W (Proc.devRef .tc main_arg3) = W (Proc.devRef .tc main_arg3) := by after_results_simp <;> rfl
theorem ops_arg4 : after (ops (F := Ideal)) W (Proc.devRef .tc main_arg4) = W (Proc.devRef .tc main_arg4) := by after_results_simp <;> rfl
theorem ops_arg5 : after (ops (F := Ideal)) W (Proc.devRef .tc main_arg5) = W (Proc.devRef .tc main_arg5) := by after_results_simp <;> rfl
theorem ops_arg6 : after (ops (F := Ideal)) W (Proc.devRef .tc main_arg6) = W (Proc.devRef .tc main_arg6) := by after_results_simp <;> rfl
theorem ops_arg7 : after (ops (F := Ideal)) W (Proc.devRef .tc main_arg7) = W (Proc.devRef .tc main_arg7) := by after_results_simp <;> rfl
theorem ops_arg8 : after (ops (F := Ideal)) W (Proc.devRef .tc main_arg8) = W (Proc.devRef .tc main_arg8) := by after_results_simp <;> rfl

end Cert.ReferenceIdeal.SageValue

end
-- ==== Proof.lean ====
/-
  A three-layer graph network (sum the neighbours' features and the node's own, scale by one over the degree plus one,
  multiply by the weights, add the bias; clamp at zero twice, then take the log-softmax of each row), computed by a kernel
  program that tiles the 50000 nodes into 25 blocks of rows per layer, against the same network computed over all rows
  at once. Over the extended reals the two are one function of the nine argument arrays:

    * a tile's matrix product, accumulated into a zero tile from operands rounded to a narrower format, is the plain sum
      over the contracted axis (a change of format is the identity on exact values), and so is the untiled product;
    * a row's pre-activation, maximum and sum of exponentials depend only on that row, so block `t` of the tiled result is
      block `t` of the untiled layer, and the blocks tile the rows;
    * the untiled program compares the row maximum once more with minus infinity and starts its sum from zero: neither
      changes the value, at infinities included, so no finiteness of the inputs is used;
    * the neighbour sums and the scales are the same host operations in both programs and are carried unopened.

  The kernel program's result is read off its run through the buffer contents at the six boundaries of its three
  regions; the untiled program's through its operations in three pieces. Both are `net` of the arguments.
-/
import proofs.«123428_j68805376082494_1_alg».proof.Defs
import proofs.«123428_j68805376082494_1_alg».proof.Proof.Gen.Kernel
import proofs.«123428_j68805376082494_1_alg».proof.Proof.Gen.Kernel.Frame
import proofs.«123428_j68805376082494_1_alg».proof.Proof.Gen.KernelIdeal
import proofs.«123428_j68805376082494_1_alg».proof.Proof.Gen.KernelIdeal.Frame
import proofs.«123428_j68805376082494_1_alg».proof.Proof.Gen.ReferenceIdeal
import proofs.«123428_j68805376082494_1_alg».proof.Proof.Gen.Pre_finite_inputs
import proofs.«123428_j68805376082494_1_alg».proof.Proof.KernelRun
import proofs.«123428_j68805376082494_1_alg».proof.Proof.KernelValue
import proofs.«123428_j68805376082494_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

/-- The untiled program's run: it terminates with its result buffer at the network of its arguments, and the arguments
    as launched. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v62)
          = Cert.KernelIdeal.Chain.net (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg7))
              (m ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run (Cert.ReferenceIdeal.defs (F := Ideal)) _ _).mono
    (fun _ h c => ⟨(h c Cert.ReferenceIdeal.main_v62).trans (Cert.ReferenceIdeal.SageValue.result (launchContents m c)),
      (h c Cert.ReferenceIdeal.main_arg0).trans (Cert.ReferenceIdeal.SageValue.ops_arg0 (launchContents m c)),
      (h c Cert.ReferenceIdeal.main_arg1).trans (Cert.ReferenceIdeal.SageValue.ops_arg1 (launchContents m c)),
      (h c Cert.ReferenceIdeal.main_arg2).trans (Cert.ReferenceIdeal.SageValue.ops_arg2 (launchContents m c)),
      (h c Cert.ReferenceIdeal.main_arg3).trans (Cert.ReferenceIdeal.SageValue.ops_arg3 (launchContents m c)),
      (h c Cert.ReferenceIdeal.main_arg4).trans (Cert.ReferenceIdeal.SageValue.ops_arg4 (launchContents m c)),
      (h c Cert.ReferenceIdeal.main_arg5).trans (Cert.ReferenceIdeal.SageValue.ops_arg5 (launchContents m c)),
      (h c Cert.ReferenceIdeal.main_arg6).trans (Cert.ReferenceIdeal.SageValue.ops_arg6 (launchContents m c)),
      (h c Cert.ReferenceIdeal.main_arg7).trans (Cert.ReferenceIdeal.SageValue.ops_arg7 (launchContents m c)),
      (h c Cert.ReferenceIdeal.main_arg8).trans (Cert.ReferenceIdeal.SageValue.ops_arg8 (launchContents m c))⟩)
    (Cert.ReferenceIdeal.RunOps.run_after (F := Ideal) m ρ)

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run (Cert.ReferenceIdeal.defs (F := Ideal)) _ _).mono (fun _ h c => (h c).2) (reference_run m ρ)

/-- The idealization rewrote nothing: the idealized kernel program is the kernel program's own text read at exact values. -/
theorem preserves : Cert.preserves_Kernel_KernelIdeal := trivial

/-- Both programs end with their result buffer at `net` of the arguments, which agree. -/
theorem algebraic : Cert.algebraic_KernelIdeal_ReferenceIdeal := by
  intro m ρ m' ρ' _ hagree
  refine ⟨fun c => Cert.KernelIdeal.Chain.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run (Cert.KernelIdeal.defs (F := Ideal)) _ _).mono
      (fun _ h c => ⟨(h c).1.trans (Cert.KernelIdeal.SageValue.result m ρ c), (h c).2⟩)
      (Cert.KernelIdeal.SageRun.run_result (F := Ideal) m ρ)
  · refine (θ_run (Cert.ReferenceIdeal.defs (F := Ideal)) _ _).mono (fun _ h c => ⟨(h c).1.trans ?_, (h c).2⟩) (reference_run m' ρ')
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
